-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg8 : FVec F S16x7 .f32) (main_arg9 : FVec F S7 .f32) (main_v33 : IVec S_ 1) : IVec S_ 1 :=
  let main_v34 : FVec F S16x7 .f32 := Host.absf main_arg8
  let main_cst_12 : FVec F S_ .f32 := constant S_ .f32 0x7F800000#32
  let main_v35 : FVec F S16x7 .f32 := broadcastInDim S16x7 ![] bcast_S_S16x7 main_cst_12
  let main_v36 : IVec S16x7 1 := cmpf .olt main_v34 main_v35
  let main_c_13 : IVec S_ 1 := constantI S_ 1 1#1
  let main_v37 : IVec S_ 1 := (fun x v => Host.reduce IntOp.andi x v reducesTo_S16x7_S_d0_1 h_S_) main_v36 main_c_13
  let main_v38 : IVec S_ 1 := andi main_v33 main_v37
  let main_v39 : FVec F S7 .f32 := Host.absf main_arg9
  let main_cst_14 : FVec F S_ .f32 := constant S_ .f32 0x7F800000#32
  let main_v40 : FVec F S7 .f32 := broadcastInDim S7 ![] bcast_S_S7 main_cst_14
  let main_v41 : IVec S7 1 := cmpf .olt main_v39 main_v40
  let main_c_15 : IVec S_ 1 := constantI S_ 1 1#1
  let main_v42 : IVec S_ 1 := (fun x v => Host.reduce IntOp.andi x v reducesTo_S7_S_d0 h_S_) main_v41 main_c_15
  let main_v43 : IVec S_ 1 := andi main_v38 main_v42
  main_v43

def fn_part1 {F : FTy → Type} [FloatOps F] (main_arg5 : FVec F S32 .f32) (main_arg6 : FVec F S32x16 .f32) (main_arg7 : FVec F S16 .f32) (main_arg8 : FVec F S16x7 .f32) (main_arg9 : FVec F S7 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x512 .f32) (main_arg1 : IVec S2x1600000 32) (main_arg2 : FVec F S512x64 .f32) (main_arg3 : FVec F S64 .f32) (main_arg4 : FVec F S64x32 .f32) (main_arg5 : FVec F S32 .f32) (main_arg6 : FVec F S32x16 .f32) (main_arg7 : FVec F S16 .f32) (main_arg8 : FVec F S16x7 .f32) (main_arg9 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S4000x512 : Shape := ⟨2, ![4000, 512]⟩
abbrev S4000x64 : Shape := ⟨2, ![4000, 64]⟩
abbrev S1700000x64 : Shape := ⟨2, ![1700000, 64]⟩
abbrev S1x64 : Shape := ⟨2, ![1, 64]⟩
abbrev S100000x32 : Shape := ⟨2, ![100000, 32]⟩
abbrev S4000x32 : Shape := ⟨2, ![4000, 32]⟩
abbrev S1700000x32 : Shape := ⟨2, ![1700000, 32]⟩
abbrev S1x32 : Shape := ⟨2, ![1, 32]⟩
abbrev S100000x16 : Shape := ⟨2, ![100000, 16]⟩
abbrev S4000x16 : Shape := ⟨2, ![4000, 16]⟩
abbrev S1700000x16 : Shape := ⟨2, ![1700000, 16]⟩
abbrev S1x16 : Shape := ⟨2, ![1, 16]⟩
abbrev S1x7 : Shape := ⟨2, ![1, 7]⟩
abbrev S100000x7 : Shape := ⟨2, ![100000, 7]⟩
abbrev S4000x7 : Shape := ⟨2, ![4000, 7]⟩

abbrev nBuf : Space → Nat
  | .hbm => 118
  | .vmem => 21
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x7, .f32⟩
  | .hbm, ⟨9, _⟩ => ⟨S7, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x32, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x32, .f32⟩
  | .hbm, ⟨83, _⟩ => ⟨S1700000x1, .f32⟩
  | .hbm, ⟨84, _⟩ => ⟨S1700000x32, .f32⟩
  | .hbm, ⟨85, _⟩ => ⟨S1700000x32, .f32⟩
  | .hbm, ⟨86, _⟩ => ⟨S_, .f32⟩
  | .hbm, ⟨87, _⟩ => ⟨S100000x32, .f32⟩
  | .hbm, ⟨88, _⟩ => ⟨S1700000x1, .i32⟩
  | .hbm, ⟨89, _⟩ => ⟨S100000x32, .f32⟩
  | .hbm, ⟨90, _⟩ => ⟨S1x32, .f32⟩
  | .hbm, ⟨91, _⟩ => ⟨S100000x32, .f32⟩
  | .hbm, ⟨92, _⟩ => ⟨S100000x32, .f32⟩
  | .hbm, ⟨93, _⟩ => ⟨S_, .f32⟩
  | .hbm, ⟨94, _⟩ => ⟨S100000x32, .f32⟩
  | .hbm, ⟨95, _⟩ => ⟨S100000x32, .f32⟩
  | .hbm, ⟨96, _⟩ => ⟨S100000x16, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x16, .f32⟩
  | .hbm, ⟨106, _⟩ => ⟨S1700000x1, .f32⟩
  | .hbm, ⟨107, _⟩ => ⟨S1700000x16, .f32⟩
  | .hbm, ⟨108, _⟩ => ⟨S1700000x16, .f32⟩
  | .hbm, ⟨109, _⟩ => ⟨S_, .f32⟩
  | .hbm, ⟨110, _⟩ => ⟨S100000x16, .f32⟩
  | .hbm, ⟨111, _⟩ => ⟨S1700000x1, .i32⟩
  | .hbm, ⟨112, _⟩ => ⟨S100000x16, .f32⟩
  | .hbm, ⟨113, _⟩ => ⟨S1x16, .f32⟩
  | .hbm, ⟨114, _⟩ => ⟨S100000x16, .f32⟩
  | .hbm, ⟨115, _⟩ => ⟨S100000x16, .f32⟩
  | .hbm, ⟨116, _⟩ => ⟨S1x7, .f32⟩
  | .hbm, ⟨117, _⟩ => ⟨S100000x7, .f32⟩
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S64x32, .f32⟩
  | .local _ .vmem, ⟨8, _⟩ => ⟨S4000x32, .f32⟩
  | .local _ .vmem, ⟨9, _⟩ => ⟨S4000x32, .f32⟩
  | .local _ .vmem, ⟨10, _⟩ => ⟨S4000x32, .f32⟩
  | .local _ .vmem, ⟨11, _⟩ => ⟨S4000x32, .f32⟩
  | .local _ .vmem, ⟨12, _⟩ => ⟨S32x16, .f32⟩
  | .local _ .vmem, ⟨13, _⟩ => ⟨S4000x16, .f32⟩
  | .local _ .vmem, ⟨14, _⟩ => ⟨S4000x16, .f32⟩
  | .local _ .vmem, ⟨15, _⟩ => ⟨S4000x16, .f32⟩
  | .local _ .vmem, ⟨16, _⟩ => ⟨S4000x16, .f32⟩
  | .local _ .vmem, ⟨17, _⟩ => ⟨S16x7, .f32⟩
  | .local _ .vmem, ⟨18, _⟩ => ⟨S1x7, .f32⟩
  | .local _ .vmem, ⟨19, _⟩ => ⟨S4000x7, .f32⟩
  | .local _ .vmem, ⟨20, _⟩ => ⟨S4000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x7 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x7 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S4000x64_S4000x64 : S4000x64.ShapeCasts S4000x64
  inb_S64x32_S64x32_0_0 : ∀ a, (![0, 0] : Fin 2 → Nat) a + S64x32.size a ≤ S64x32.size a
  h_S64x32 : 0 < S64x32.numel
  inb_S4000x32_S4000x32_0_0 : ∀ a, (![0, 0] : Fin 2 → Nat) a + S4000x32.size a ≤ S4000x32.size a
  h_S4000x32 : 0 < S4000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S4000x32_S4000x32 : S4000x32.ShapeCasts S4000x32
  inb_S32x16_S32x16_0_0 : ∀ a, (![0, 0] : Fin 2 → Nat) a + S32x16.size a ≤ S32x16.size a
  h_S32x16 : 0 < S32x16.numel
  inb_S4000x16_S4000x16_0_0 : ∀ a, (![0, 0] : Fin 2 → Nat) a + S4000x16.size a ≤ S4000x16.size a
  h_S4000x16 : 0 < S4000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S7_S1x7 : S7.ShapeCasts S1x7
  shapeCasts_S4000x16_S4000x16 : S4000x16.ShapeCasts S4000x16
  inb_S16x7_S16x7_0_0 : ∀ a, (![0, 0] : Fin 2 → Nat) a + S16x7.size a ≤ S16x7.size a
  h_S16x7 : 0 < S16x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S4000x7 : S1x7.Broadcasts S4000x7
  inb_S4000x7_S4000x7_0_0 : ∀ a, (![0, 0] : Fin 2 → Nat) a + S4000x7.size a ≤ S4000x7.size a
  h_S4000x7 : 0 < S4000x7.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x512_S512x64_S4000x64_1_0_0_1_n_n_wf : DotDims.WF S4000x512 S512x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x32_S4000x32_1_0_0_1_n_n_wf : DotDims.WF S4000x64 S64x32 S4000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S4000x32_S32x16_S4000x16_1_0_0_1_n_n_wf : DotDims.WF S4000x32 S32x16 S4000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S4000x16_S16x7_S4000x7_1_0_0_1_n_n_wf : DotDims.WF S4000x16 S16x7 S4000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S100000x32.size a
  hwx1_2 : ∀ i : grid1.Coords, EltTy.bits .f32 = 32 ∨ (Rect.block (s := S100000x32) S4000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x16.size a ≤ S100000x16.size a
  hwx2_2 : ∀ i : grid2.Coords, EltTy.bits .f32 = 32 ∨ (Rect.block (s := S100000x16) S4000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x16.size a ≤ S100000x16.size a
  hwx3_0 : ∀ i : grid3.Coords, EltTy.bits .f32 = 32 ∨ (Rect.block (s := S100000x16) S4000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x7.size a ≤ S16x7.size a
  hwx3_1 : ∀ i : grid3.Coords, EltTy.bits .f32 = 32 ∨ (Rect.block (s := S16x7) S16x7.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x7.size a ≤ S1x7.size a
  hwx3_2 : ∀ i : grid3.Coords, EltTy.bits .f32 = 32 ∨ (Rect.block (s := S1x7) S1x7.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x7.size a ≤ S100000x7.size a
  hwx3_3 : ∀ i : grid3.Coords, EltTy.bits .f32 = 32 ∨ (Rect.block (s := S100000x7) S4000x7.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S4000x16_S16x7_S4000x7_1_0_0_1_n_n : DotDims S4000x16 S16x7 S4000x7 where
  lhsContracting := [1]
  rhsContracting := [0]
  lhsNonContracting := [0]
  rhsNonContracting := [1]
  lhsBatch := []
  rhsBatch := []
  wf := dot_S4000x16_S16x7_S4000x7_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S4000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S4000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S16x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S1x7.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v84) S4000x7.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x16 : Shape := ⟨2, ![100000, 16]⟩
abbrev S1700000x16 : Shape := ⟨2, ![1700000, 16]⟩
abbrev S1x16 : Shape := ⟨2, ![1, 16]⟩
abbrev S100000x7 : Shape := ⟨2, ![100000, 7]⟩
abbrev S1x7 : Shape := ⟨2, ![1, 7]⟩

abbrev nBuf : Space → Nat
  | .hbm => 120
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x7, .f32⟩
  | .hbm, ⟨9, _⟩ => ⟨S7, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x32, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x32, .f32⟩
  | .hbm, ⟨83, _⟩ => ⟨S1700000x1, .f32⟩
  | .hbm, ⟨84, _⟩ => ⟨S1700000x32, .f32⟩
  | .hbm, ⟨85, _⟩ => ⟨S1700000x32, .f32⟩
  | .hbm, ⟨86, _⟩ => ⟨S_, .f32⟩
  | .hbm, ⟨87, _⟩ => ⟨S100000x32, .f32⟩
  | .hbm, ⟨88, _⟩ => ⟨S1700000x1, .i32⟩
  | .hbm, ⟨89, _⟩ => ⟨S100000x32, .f32⟩
  | .hbm, ⟨90, _⟩ => ⟨S1x32, .f32⟩
  | .hbm, ⟨91, _⟩ => ⟨S100000x32, .f32⟩
  | .hbm, ⟨92, _⟩ => ⟨S100000x32, .f32⟩
  | .hbm, ⟨93, _⟩ => ⟨S_, .f32⟩
  | .hbm, ⟨94, _⟩ => ⟨S100000x32, .f32⟩
  | .hbm, ⟨95, _⟩ => ⟨S100000x32, .f32⟩
  | .hbm, ⟨96, _⟩ => ⟨S100000x16, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x16, .f32⟩
  | .hbm, ⟨106, _⟩ => ⟨S1700000x1, .f32⟩
  | .hbm, ⟨107, _⟩ => ⟨S1700000x16, .f32⟩
  | .hbm, ⟨108, _⟩ => ⟨S1700000x16, .f32⟩
  | .hbm, ⟨109, _⟩ => ⟨S_, .f32⟩
  | .hbm, ⟨110, _⟩ => ⟨S100000x16, .f32⟩
  | .hbm, ⟨111, _⟩ => ⟨S1700000x1, .i32⟩
  | .hbm, ⟨112, _⟩ => ⟨S100000x16, .f32⟩
  | .hbm, ⟨113, _⟩ => ⟨S1x16, .f32⟩
  | .hbm, ⟨114, _⟩ => ⟨S100000x16, .f32⟩
  | .hbm, ⟨115, _⟩ => ⟨S100000x16, .f32⟩
  | .hbm, ⟨116, _⟩ => ⟨S100000x7, .f32⟩
  | .hbm, ⟨117, _⟩ => ⟨S1x7, .f32⟩
  | .hbm, ⟨118, _⟩ => ⟨S100000x7, .f32⟩
  | .hbm, ⟨119, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x64_S100000x64_1_0_0_1_n_n_wf : DotDims.WF S100000x512 S512x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x7_S100000x7_1_0_0_1_n_n_wf : DotDims.WF S100000x16 S16x7 S100000x7 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf

class Facts : Prop extends Facts₀ where

variable [Facts]
-- ==== Proof.KernelRun.lean ====
/-
  The idealized kernel program's run with its result buffer named.

  The program is four pipelined matrix products among stretches of host operations. Its frame run ends with every
  unscoped buffer of a core at the last boundary's contents, the fold `W12` of the host stretches and of the four
  regions' write-backs over the launch memory. Read at the result buffer this gives the result as `W12` there; read at
  the ten argument buffers it gives them unchanged.
-/
import proofs.«137022_j44212393345738_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with the result buffer at the last boundary's
    contents and the argument buffers as launched. -/
theorem run_named : θ_run defs (onTc (τ := τ) (main (F := F))) ⟨m, fun _ => 0, ρ⟩ (fun r => ∀ c : Dev nD,
      r.2.mem ((c.tc : Thread nD τ).loc main_v84) = W12 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v84 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.Named

end
-- ==== Proof.HostSpec.lean ====
/-
  The host side of the network, shared by the two programs, as functions of the arrays it reads.

  Both programs prepare the graph the same way: the edge list with a self-loop appended for every node (sources s,
  targets d), each node's degree as the sum of ones over the edges that target it, its inverse square root where the
  degree is positive and 0 elsewhere, and the weight of an edge as the product of that value at its two ends. A
  convolution layer then gathers the rows of a node array at the sources, scales each by its edge's weight, sums them
  into the targets' rows and adds a bias row; the first two layers keep the positive part. These are the host
  operations' own terms, named; nothing about them is used beyond their being the same in both programs.
-/
import proofs.«137022_j44212393345738_1_alg».proof.ReferenceIdeal
import Idealize.ShloMosaic.PureOps.Ideal

noncomputable section

namespace Cert.HostSpec

open Cert.ReferenceIdeal Cert.ReferenceIdeal.Facts₀ Idealize.ShloMosaic

variable [Cert.ReferenceIdeal.Facts]

abbrev F32 (S : Shape) : Type := FVec Ideal S .f32
abbrev I32 (S : Shape) : Type := IVec S 32
abbrev I1 (S : Shape) : Type := IVec S 1

/-- The edges' sources: row 0 of the edge list, then every node once. -/
def srcOf (e : I32 S2x1600000) : I32 S1700000 :=
  concatenate S1700000 0
    [⟨S1600000, shapeCast S1600000 (extractStridedSlice S1x1600000 ![0, 0] e slices_S2x1600000_S1x1600000_0_0)
        shapeCasts_S1x1600000_S1600000⟩,
      ⟨S100000, iotaInDim S100000 32 0⟩]
    concatenates_S1600000_S100000_S1700000_d0

/-- The edges' targets: row 1 of the edge list, then every node once. -/
def dstOf (e : I32 S2x1600000) : I32 S1700000 :=
  concatenate S1700000 0
    [⟨S1600000, shapeCast S1600000 (extractStridedSlice S1x1600000 ![1, 0] e slices_S2x1600000_S1x1600000_1_0)
        shapeCasts_S1x1600000_S1600000⟩,
      ⟨S100000, iotaInDim S100000 32 0⟩]
    concatenates_S1600000_S100000_S1700000_d0

/-- A node's degree: the sum of ones over the edges that target it. -/
def degOf (d : I32 S1700000) : F32 S100000 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 d)
    (broadcastInDim S1700000 ![] bcast_S_S1700000 (constant (F := Ideal) S_ .f32 0x3F800000#32))

/-- Where the degree is positive. -/
def posOf (g : F32 S100000) : I1 S100000 :=
  cmpf (F := Ideal) .ogt g (broadcastInDim S100000 ![] bcast_S_S100000 (constant (F := Ideal) S_ .f32 0x00000000#32))

/-- The inverse square root r where p holds, the scalar z elsewhere. -/
def disOf (p : I1 S100000) (r : F32 S100000) (z : F32 S_) : F32 S100000 :=
  select p r (broadcastInDim S100000 ![] bcast_S_S100000 (id z))

/-- A node number brought into range (a negative one counted from the end), as a column of start indices. -/
def wrap (v : I32 S1700000) : I32 S1700000x1 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- An edge's weight: the node value at its source times the node value at its target. -/
def normOf (dis : F32 S100000) (s d : I32 S1700000) : F32 S1700000 :=
  mulf (F := Ideal) (Host.gather gather_S100000_S1700000x1_S1700000_n_0_n_n_0_1_1 dis (wrap s))
    (Host.gather gather_S100000_S1700000x1_S1700000_n_0_n_n_0_1_1 dis (wrap d))

/-- The edges' weights from the edge list. -/
def normE (e : I32 S2x1600000) : F32 S1700000 :=
  normOf (disOf (posOf (degOf (dstOf e))) (Host.rsqrt (F := Ideal) (degOf (dstOf e))) (constant (F := Ideal) S_ .f32 0x00000000#32)) (srcOf e) (dstOf e)

/-- One graph convolution's aggregation into 64 features: the rows of h gathered at the edges' sources (wrapped into
    range), each scaled by its edge's weight n, summed into the rows named by the edges' targets d, plus the bias b
    spread over the rows. -/
def agg64 (h : F32 S100000x64) (s d : I32 S1700000) (n : F32 S1700000) (b : F32 S64) : F32 S100000x64 :=
  addf (F := Ideal)
    (Host.scatterAdd (F := Ideal) scatter_S100000x64_S1700000x1_S1700000x64_1_0_0_1
      (broadcastInDim S100000x64 ![] bcast_S_S100000x64 (constant (F := Ideal) S_ .f32 0x00000000#32))
      (broadcastInDim S1700000x1 ![0] bcast_S1700000_S1700000x1_0 d)
      (mulf (F := Ideal) (Host.gather gather_S100000x64_S1700000x1_S1700000x64_1_0_n_n_0_1_164 h (wrap s))
        (broadcastInDim S1700000x64 ![0, 1] bcast_S1700000x1_S1700000x64_0_1
          (broadcastInDim S1700000x1 ![0] bcast_S1700000_S1700000x1_0 n))))
    (broadcastInDim S100000x64 ![0, 1] bcast_S1x64_S100000x64_0_1 (broadcastInDim S1x64 ![1] bcast_S64_S1x64_1 b))

/-- One graph convolution's aggregation into 32 features: the rows of h gathered at the edges' sources (wrapped into
    range), each scaled by its edge's weight n, summed into the rows named by the edges' targets d, plus the bias b
    spread over the rows. -/
def agg32 (h : F32 S100000x32) (s d : I32 S1700000) (n : F32 S1700000) (b : F32 S32) : F32 S100000x32 :=
  addf (F := Ideal)
    (Host.scatterAdd (F := Ideal) scatter_S100000x32_S1700000x1_S1700000x32_1_0_0_1
      (broadcastInDim S100000x32 ![] bcast_S_S100000x32 (constant (F := Ideal) S_ .f32 0x00000000#32))
      (broadcastInDim S1700000x1 ![0] bcast_S1700000_S1700000x1_0 d)
      (mulf (F := Ideal) (Host.gather gather_S100000x32_S1700000x1_S1700000x32_1_0_n_n_0_1_132 h (wrap s))
        (broadcastInDim S1700000x32 ![0, 1] bcast_S1700000x1_S1700000x32_0_1
          (broadcastInDim S1700000x1 ![0] bcast_S1700000_S1700000x1_0 n))))
    (broadcastInDim S100000x32 ![0, 1] bcast_S1x32_S100000x32_0_1 (broadcastInDim S1x32 ![1] bcast_S32_S1x32_1 b))

/-- One graph convolution's aggregation into 16 features: the rows of h gathered at the edges' sources (wrapped into
    range), each scaled by its edge's weight n, summed into the rows named by the edges' targets d, plus the bias b
    spread over the rows. -/
def agg16 (h : F32 S100000x16) (s d : I32 S1700000) (n : F32 S1700000) (b : F32 S16) : F32 S100000x16 :=
  addf (F := Ideal)
    (Host.scatterAdd (F := Ideal) scatter_S100000x16_S1700000x1_S1700000x16_1_0_0_1
      (broadcastInDim S100000x16 ![] bcast_S_S100000x16 (constant (F := Ideal) S_ .f32 0x00000000#32))
      (broadcastInDim S1700000x1 ![0] bcast_S1700000_S1700000x1_0 d)
      (mulf (F := Ideal) (Host.gather gather_S100000x16_S1700000x1_S1700000x16_1_0_n_n_0_1_116 h (wrap s))
        (broadcastInDim S1700000x16 ![0, 1] bcast_S1700000x1_S1700000x16_0_1
          (broadcastInDim S1700000x1 ![0] bcast_S1700000_S1700000x1_0 n))))
    (broadcastInDim S100000x16 ![0, 1] bcast_S1x16_S100000x16_0_1 (broadcastInDim S1x16 ![1] bcast_S16_S1x16_1 b))

/-- The positive part, entry by entry. -/
def relu64 (y : F32 S100000x64) : F32 S100000x64 :=
  maximumf (F := Ideal) y (broadcastInDim S100000x64 ![] bcast_S_S100000x64 (constant (F := Ideal) S_ .f32 0x00000000#32))

/-- The positive part, entry by entry. -/
def relu32 (y : F32 S100000x32) : F32 S100000x32 :=
  maximumf (F := Ideal) y (broadcastInDim S100000x32 ![] bcast_S_S100000x32 (constant (F := Ideal) S_ .f32 0x00000000#32))

end Cert.HostSpec

end
-- ==== Proof.LibTypedRefs.lean ====
/-
  Typed references of a host program: carrying contents to a buffer's own type and back.

  An outlined function's body names its values by typed references; an operation built over them carries each
  operand from its buffer's type to the value's type and the result back, by a transport along the equation "the
  buffer's type is the value's type". Composed term after composed term these transports come in pairs, back and
  forth along one equation:
  * ofBuf_toBuf: contents carried to the buffer's type and back are the contents;
  * toBuf_ofBuf: and the other way round.
  Both hold for every reference, whatever its equation's proof: no type is computed. Rewriting with them leaves a
  composed term with transports only at its leaves and at its top.
-/
import Idealize.ShloMosaic.Lib.StableHlo

noncomputable section

namespace Cert.LibTypedRefs

open Idealize.ShloMosaic Idealize.ShloMosaic.StableHlo

variable {sig : RefSig} {Val : EltTy → Type} {T : BufTy}

/-- Contents carried to a buffer's type and back are the contents. -/
theorem ofBuf_toBuf (x : TRef sig T) (v : T.Contents Val) : x.ofBuf (x.toBuf v) = v := by
  show cast _ (cast _ v) = v
  rw [cast_cast, cast_eq]

/-- A buffer's contents carried to the value's type and back are the buffer's contents. -/
theorem toBuf_ofBuf (x : TRef sig T) (v : x.ref.ty.Contents Val) : x.toBuf (x.ofBuf v) = v := by
  show cast _ (cast _ v) = v
  rw [cast_cast, cast_eq]

end Cert.LibTypedRefs

end
-- ==== Proof.KHost.lean ====
/-
  The idealized kernel program's host stretches, one at a time, from ANY contents W of the device's buffers: what each
  stretch leaves in the buffers that later stretches and the matrix products read, as the shared host functions
  (Cert.HostSpec) of what it finds in W; and that a stretch leaves every buffer it does not write as it was.
-/
import proofs.«137022_j44212393345738_1_alg».proof.Proof.Gen.KernelIdeal.Frame
import proofs.«137022_j44212393345738_1_alg».proof.Proof.Gen.ReferenceIdeal
import proofs.«137022_j44212393345738_1_alg».proof.Proof.HostSpec
import proofs.«137022_j44212393345738_1_alg».proof.Proof.LibTypedRefs
import Idealize.ShloMosaic.Lib.StableHlo.Run

noncomputable section

namespace Cert.KernelIdeal.Host

open Cert.KernelIdeal Cert.KernelIdeal.Gen
open Idealize.ShloMosaic Idealize.ShloMosaic.TcCoe Idealize.SL.Sem Idealize.ShloMosaic.StableHlo
open Cert.HostSpec (srcOf dstOf degOf posOf disOf wrap normOf agg64 agg32 agg16 relu64 relu32)

variable (W : Valuation τ sig (Elt Ideal))

/-- The buffers the stretch writes. -/
abbrev wr_w0 : List (Ref sig .tc) := [main_v0, main_v1, main_v2, main_v3, main_v4, main_v5, main_v6, main_cst, main_v7, main_cst_0, main_v8, main_v9, main_v10, main_cst_1, main_v11, main_v12, main_v13, main_cst_2]
theorem hw_w0 : (hostOps0 (F := Ideal)).Forall fun op => op.writes ⊆ ((wr_w0).map (Proc.devRef (τ := τ) .tc)).toFinset := by
  simp only [hostOps0, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep_w0 {r : Ref sig .tc} (hr : r ∉ wr_w0) : after (hostOps0 (F := Ideal)) W (Proc.devRef .tc r) = W (Proc.devRef .tc r) :=
  after_of_writes_sub _ W hw_w0 hr

/-- The buffers the stretch writes. -/
abbrev wr_w0_1 : List (Ref sig .tc) := [main_call0_v0, main_call0_v1, main_v14]
theorem hw_w0_1 : (hostOps0_1 (F := Ideal)).Forall fun op => op.writes ⊆ ((wr_w0_1).map (Proc.devRef (τ := τ) .tc)).toFinset := by
  simp only [hostOps0_1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep_w0_1 {r : Ref sig .tc} (hr : r ∉ wr_w0_1) : after (hostOps0_1 (F := Ideal)) W (Proc.devRef .tc r) = W (Proc.devRef .tc r) :=
  after_of_writes_sub _ W hw_w0_1 hr

/-- The buffers the stretch writes. -/
abbrev wr_w0_2 : List (Ref sig .tc) := [main_c, main_v15, main_v16, main_c_3, main_v17, main_v18, main_v19, main_v20, main_v21, main_c_4, main_v22, main_v23, main_c_5, main_v24, main_v25, main_v26, main_v27, main_v28, main_v29]
theorem hw_w0_2 : (hostOps0_2 (F := Ideal)).Forall fun op => op.writes ⊆ ((wr_w0_2).map (Proc.devRef (τ := τ) .tc)).toFinset := by
  simp only [hostOps0_2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep_w0_2 {r : Ref sig .tc} (hr : r ∉ wr_w0_2) : after (hostOps0_2 (F := Ideal)) W (Proc.devRef .tc r) = W (Proc.devRef .tc r) :=
  after_of_writes_sub _ W hw_w0_2 hr

/-- The buffers the stretch writes. -/
abbrev wr_w1 : List (Ref sig .tc) := [main_c_6, main_v31, main_v32, main_c_7, main_v33, main_v34, main_v35, main_v36, main_v37, main_v38, main_v39, main_v40, main_cst_8, main_v41, main_v42, main_v43, main_v44, main_v45, main_v46]
theorem hw_w1 : (hostOps1 (F := Ideal)).Forall fun op => op.writes ⊆ ((wr_w1).map (Proc.devRef (τ := τ) .tc)).toFinset := by
  simp only [hostOps1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep_w1 {r : Ref sig .tc} (hr : r ∉ wr_w1) : after (hostOps1 (F := Ideal)) W (Proc.devRef .tc r) = W (Proc.devRef .tc r) :=
  after_of_writes_sub _ W hw_w1 hr

/-- The buffers the stretch writes. -/
abbrev wr_w1_1 : List (Ref sig .tc) := [main_call1_cst, main_call1_v0, main_v47]
theorem hw_w1_1 : (hostOps1_1 (F := Ideal)).Forall fun op => op.writes ⊆ ((wr_w1_1).map (Proc.devRef (τ := τ) .tc)).toFinset := by
  simp only [hostOps1_1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep_w1_1 {r : Ref sig .tc} (hr : r ∉ wr_w1_1) : after (hostOps1_1 (F := Ideal)) W (Proc.devRef .tc r) = W (Proc.devRef .tc r) :=
  after_of_writes_sub _ W hw_w1_1 hr

/-- The buffers the stretch writes. -/
abbrev wr_w2 : List (Ref sig .tc) := [main_c_9, main_v49, main_v50, main_c_10, main_v51, main_v52, main_v53, main_v54, main_v55, main_v56, main_v57, main_v58, main_cst_11, main_v59, main_v60, main_v61, main_v62, main_v63, main_v64]
theorem hw_w2 : (hostOps2 (F := Ideal)).Forall fun op => op.writes ⊆ ((wr_w2).map (Proc.devRef (τ := τ) .tc)).toFinset := by
  simp only [hostOps2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep_w2 {r : Ref sig .tc} (hr : r ∉ wr_w2) : after (hostOps2 (F := Ideal)) W (Proc.devRef .tc r) = W (Proc.devRef .tc r) :=
  after_of_writes_sub _ W hw_w2 hr

/-- The buffers the stretch writes. -/
abbrev wr_w2_1 : List (Ref sig .tc) := [main_call2_cst, main_call2_v0, main_v65]
theorem hw_w2_1 : (hostOps2_1 (F := Ideal)).Forall fun op => op.writes ⊆ ((wr_w2_1).map (Proc.devRef (τ := τ) .tc)).toFinset := by
  simp only [hostOps2_1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep_w2_1 {r : Ref sig .tc} (hr : r ∉ wr_w2_1) : after (hostOps2_1 (F := Ideal)) W (Proc.devRef .tc r) = W (Proc.devRef .tc r) :=
  after_of_writes_sub _ W hw_w2_1 hr

/-- The buffers the stretch writes. -/
abbrev wr_w3 : List (Ref sig .tc) := [main_c_12, main_v67, main_v68, main_c_13, main_v69, main_v70, main_v71, main_v72, main_v73, main_v74, main_v75, main_v76, main_cst_14, main_v77, main_v78, main_v79, main_v80, main_v81, main_v82, main_v83]
theorem hw_w3 : (hostOps3 (F := Ideal)).Forall fun op => op.writes ⊆ ((wr_w3).map (Proc.devRef (τ := τ) .tc)).toFinset := by
  simp only [hostOps3, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem keep_w3 {r : Ref sig .tc} (hr : r ∉ wr_w3) : after (hostOps3 (F := Ideal)) W (Proc.devRef .tc r) = W (Proc.devRef .tc r) :=
  after_of_writes_sub _ W hw_w3 hr

/-! ## What each stretch leaves in the buffers later stretches read -/

theorem w0_v3 : after (hostOps0 (F := Ideal)) W (Proc.devRef .tc main_v3) = srcOf (W (Proc.devRef .tc main_arg1)) := by
  after_results
  rfl

theorem w0_v6 : after (hostOps0 (F := Ideal)) W (Proc.devRef .tc main_v6) = dstOf (W (Proc.devRef .tc main_arg1)) := by
  after_results
  rfl

theorem w0_v12 : after (hostOps0 (F := Ideal)) W (Proc.devRef .tc main_v12) = posOf (degOf (dstOf (W (Proc.devRef .tc main_arg1)))) := by
  after_results
  rfl

theorem w0_v13 : after (hostOps0 (F := Ideal)) W (Proc.devRef .tc main_v13) = Host.rsqrt (F := Ideal) (degOf (dstOf (W (Proc.devRef .tc main_arg1)))) := by
  after_results
  rfl

theorem w0_cst_2 : after (hostOps0 (F := Ideal)) W (Proc.devRef .tc main_cst_2) = constant (F := Ideal) S_ .f32 0x00000000#32 := by
  after_results <;> rfl

theorem w0_1_v14 : after (hostOps0_1 (F := Ideal)) W (Proc.devRef .tc main_v14) = disOf (W (Proc.devRef .tc main_v12)) (W (Proc.devRef .tc main_v13)) (W (Proc.devRef .tc main_cst_2)) := by
  after_results
  try simp only [Cert.LibTypedRefs.ofBuf_toBuf, Cert.LibTypedRefs.toBuf_ofBuf]
  rfl

theorem w0_2_v29 : after (hostOps0_2 (F := Ideal)) W (Proc.devRef .tc main_v29) = normOf (W (Proc.devRef .tc main_v14)) (W (Proc.devRef .tc main_v3)) (W (Proc.devRef .tc main_v6)) := by
  after_results_simp <;> rfl

theorem w1_v46 : after (hostOps1 (F := Ideal)) W (Proc.devRef .tc main_v46) = agg64 (W (Proc.devRef .tc main_v30)) (W (Proc.devRef .tc main_v3)) (W (Proc.devRef .tc main_v6)) (W (Proc.devRef .tc main_v29)) (W (Proc.devRef .tc main_arg3)) := by
  after_results_simp <;> rfl

theorem w1_1_v47 : after (hostOps1_1 (F := Ideal)) W (Proc.devRef .tc main_v47) = relu64 (W (Proc.devRef .tc main_v46)) := by
  after_results
  try simp only [Cert.LibTypedRefs.ofBuf_toBuf, Cert.LibTypedRefs.toBuf_ofBuf]
  rfl

theorem w2_v64 : after (hostOps2 (F := Ideal)) W (Proc.devRef .tc main_v64) = agg32 (W (Proc.devRef .tc main_v48)) (W (Proc.devRef .tc main_v3)) (W (Proc.devRef .tc main_v6)) (W (Proc.devRef .tc main_v29)) (W (Proc.devRef .tc main_arg5)) := by
  after_results_simp <;> rfl

theorem w2_1_v65 : after (hostOps2_1 (F := Ideal)) W (Proc.devRef .tc main_v65) = relu32 (W (Proc.devRef .tc main_v64)) := by
  after_results
  try simp only [Cert.LibTypedRefs.ofBuf_toBuf, Cert.LibTypedRefs.toBuf_ofBuf]
  rfl

theorem w3_v82 : after (hostOps3 (F := Ideal)) W (Proc.devRef .tc main_v82) = agg16 (W (Proc.devRef .tc main_v66)) (W (Proc.devRef .tc main_v3)) (W (Proc.devRef .tc main_v6)) (W (Proc.devRef .tc main_v29)) (W (Proc.devRef .tc main_arg7)) := by
  after_results_simp <;> rfl

/-- The bias vector made a one-row array. -/
theorem w3_v83 : after (hostOps3 (F := Ideal)) W (Proc.devRef .tc main_v83) = shapeCast S1x7 (W (Proc.devRef .tc main_arg9)) Facts₀.shapeCasts_S7_S1x7 := by
  after_results
  rfl

end Cert.KernelIdeal.Host

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.Spec.lean ====
/-
  The matrix products of the network's four dense layers, on the extended reals.

  mm M K N x w is the product of an M×K array by a K×N array, entry (a, c) ↦ Σ_{k<K} x(a,k)·w(k,c);
  mmb adds a bias given as a one-row array, entry (a, c) ↦ Σ_{k<K} x(a,k)·w(k,c) + b(0,c).
  Both the host's dot_general and a matrix unit's product into a zero accumulator compute mm (Cert.LibPlainDot).
-/
import Idealize.ShloMosaic.PureOps.Ideal.Laws
import Idealize.ShloMosaic.Lib.ValueIdx
import proofs.«137022_j44212393345738_1_alg».proof.Proof.LibPlainDot

noncomputable section

namespace Cert.Spec

open Idealize.ShloMosaic Idealize.ShloMosaic.ValueIdx

variable (M K N : Nat)

/-- The product x·w. -/
def mm (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

/-- The product x·w plus the bias row b. -/
def mmb (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => ∑ k : Fin K, x (ix2 (i 0) k) * w (ix2 k (i 1)) + b (ix2 (0 : Fin 1) (i 1))

/-- The host's product is mm. -/
theorem dotGeneral_eq_mm (x : FVec Ideal ⟨2, ![M, K]⟩ .f32) (w : FVec Ideal ⟨2, ![K, N]⟩ .f32) :
    Host.dotGeneral (F := Ideal) (DotDims.plain M K N) none x w = mm M K N x w :=
  funext fun j => Cert.LibPlainDot.dotGeneral_plain M K N none x w j

/-- A matrix unit's product of a block of M' rows of x, into a zero accumulator, read in the block's row a' is mm's
    row a when the block's row a' is x's row a. -/
theorem matmul_rows (M' : Nat) (X : FVec Ideal ⟨2, ![M, K]⟩ .f32) (x : FVec Ideal ⟨2, ![M', K]⟩ .f32)
    (w : FVec Ideal ⟨2, ![K, N]⟩ .f32) (a : Fin M) (a' : Fin M') (h : ∀ k : Fin K, x (ix2 a' k) = X (ix2 a k)) (c : Fin N) :
    matmul (F := Ideal) (DotDims.plain M' K N) none x w (constant ⟨2, ![M', N]⟩ .f32 0x00000000#32) (ix2 a' c)
      = mm M K N X w (ix2 a c) := by
  rw [Cert.LibPlainDot.matmul_plain]
  refine Finset.sum_congr rfl fun k _ => ?_
  show x (ix2 a' k) * w (ix2 k c) = X (ix2 a k) * w (ix2 k c)
  rw [h k]

end Cert.Spec

end
-- ==== Proof.NetSpec.lean ====
/-
  The network as one function of its ten arguments, on the extended reals: three graph convolutions (the first two
  followed by the positive part) and an affine read-out, each dense product written as the plain sum Cert.Spec.mm.
  Both programs compute this function; they differ only in how each dense product is spelt.
-/
import proofs.«137022_j44212393345738_1_alg».proof.Proof.Spec
import proofs.«137022_j44212393345738_1_alg».proof.Proof.HostSpec
import Idealize.ShloMosaic.Lib.Pipeline.Value
import Idealize.ShloMosaic.Lib.ValueIdx

noncomputable section

namespace Cert.NetSpec

open Cert.ReferenceIdeal Idealize.ShloMosaic Idealize.ShloMosaic.ValueIdx
open Cert.HostSpec Cert.Spec

variable [Cert.ReferenceIdeal.Facts]

/-- The first layer's output: relu (Â (x W1) + b1). -/
def layer1 (x0 : F32 S100000x512) (e : I32 S2x1600000) (w1 : F32 S512x64) (b1 : F32 S64) : F32 S100000x64 :=
  relu64 (agg64 (mm 100000 512 64 x0 w1) (srcOf e) (dstOf e) (normE e) b1)

/-- The second layer's output: relu (Â (h W2) + b2). -/
def layer2 (h : F32 S100000x64) (e : I32 S2x1600000) (w2 : F32 S64x32) (b2 : F32 S32) : F32 S100000x32 :=
  relu32 (agg32 (mm 100000 64 32 h w2) (srcOf e) (dstOf e) (normE e) b2)

/-- The third layer's output: Â (h W3) + b3. -/
def layer3 (h : F32 S100000x32) (e : I32 S2x1600000) (w3 : F32 S32x16) (b3 : F32 S16) : F32 S100000x16 :=
  agg16 (mm 100000 32 16 h w3) (srcOf e) (dstOf e) (normE e) b3

/-- A length-7 vector as a one-row array. -/
def row7 (b : F32 S7) : FVec Ideal ⟨2, ![1, 7]⟩ .f32 := fun i => b (ix1 (i 1))

/-- The network: the read-out h Wl + bl of the third layer's output. -/
def net (x0 : F32 S100000x512) (e : I32 S2x1600000) (w1 : F32 S512x64) (b1 : F32 S64) (w2 : F32 S64x32) (b2 : F32 S32)
    (w3 : F32 S32x16) (b3 : F32 S16) (wl : F32 S16x7) (bl : F32 S7) : F32 S100000x7 :=
  mmb 100000 16 7 (layer3 (layer2 (layer1 x0 e w1 b1) e w2 b2) e w3 b3) wl (row7 bl)

end Cert.NetSpec

end
-- ==== Proof.Region0.lean ====
/-
  What the first pipelined matrix product writes, as one function of the arrays it finds.

  The grid has 25 points; at point t the left operand's block is rows 4000·t … 4000·t + 3999 of its array, the right
  operand's block is its whole array, and the block written back is the same rows of the result. The body multiplies
  the left block by the right array on the matrix unit into a zero accumulator (the narrowing of both operands to a
  16-bit format is the identity on the extended reals), so row 4000·t + a' of the result is row a' of that product,
  which is row 4000·t + a' of the product of the whole arrays. The 25 blocks cover the result.
-/
import proofs.«137022_j44212393345738_1_alg».proof.Proof.Gen.KernelIdeal.Frame
import proofs.«137022_j44212393345738_1_alg».proof.Proof.Spec
import Idealize.ShloMosaic.Lib.Pipeline.Value
import Idealize.ShloMosaic.Lib.ValueIdx

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at a grid point: the left operand's and the result's block row is the
    point, every other block index is 0. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 25 :=
  (by decide +kernel : ∀ t : Fin grid0.N, _)

/-- The body's product in row a' of a block is the whole product's row a, when the block's row a' is the array's row a. -/
theorem pay (X : FVec Ideal ⟨2, ![100000, 512]⟩ .f32) (x0 : Vec Ideal S4000x512 .f32) (x1 : Vec Ideal S512x64 .f32)
    (a : Fin 100000) (a' : Fin 4000) (h : ∀ k : Fin 512, x0 (ix2 a' k) = X (ix2 a k)) (b : Fin 64) :
    k0_pay1 (F := Ideal) x0 x1 (ix2 a' b) = Cert.Spec.mm 100000 512 64 X x1 (ix2 a b) :=
  Cert.Spec.matmul_rows 100000 512 64 4000 X x0 x1 a a' h b

/-- Row a' of the left operand's block at point t is row 4000·t + a' of its array. -/
theorem iblk_x (c : Dev nD) (t : Fin cfg0.N) (a' : Fin 4000) (k : Fin 512) (a : Fin 100000) (ha : a.val = 4000 * t.val + a'.val) :
    (iblk0 V c 0 t : Vec Ideal S4000x512 .f32) (ix2 a' k) = (V c main_arg0 : FVec Ideal ⟨2, ![100000, 512]⟩ .f32) (ix2 a k) := by
  obtain ⟨e0, e1, -⟩ := idx t
  unfold iblk0
  rw [View.read_apply]
  show V c main_arg0 _ = V c main_arg0 _
  refine congrArg (V c main_arg0) ?_
  funext ax; apply Fin.ext
  match ax with
  | ⟨0, _⟩ => show win0_0.index t (0 : Fin 2) * 4000 + 1 * a'.val = a.val; rw [e0, ha]; omega
  | ⟨1, _⟩ => show win0_0.index t (1 : Fin 2) * 512 + 1 * k.val = k.val; rw [e1]; omega

/-- The right operand's block at any point is its whole array. -/
theorem iblk_w (c : Dev nD) (t : Fin cfg0.N) :
    (iblk0 V c 1 t : Vec Ideal S512x64 .f32) = (V c main_arg2 : FVec Ideal ⟨2, ![512, 64]⟩ .f32) := by
  obtain ⟨-, -, e2, e3, -⟩ := idx t
  funext j
  unfold iblk0
  rw [View.read_apply]
  show V c main_arg2 _ = V c main_arg2 _
  refine congrArg (V c main_arg2) ?_
  funext ax; apply Fin.ext
  match ax with
  | ⟨0, _⟩ => show win0_1.index t (0 : Fin 2) * 512 + 1 * (j 0).val = (j 0).val; rw [e2]; omega
  | ⟨1, _⟩ => show win0_1.index t (1 : Fin 2) * 64 + 1 * (j 1).val = (j 1).val; rw [e3]; omega

/-- What point t writes back is block t of the product of the arrays the region finds. -/
theorem flushed_eq (c : Dev nD) (t : Fin cfg0.N) :
    (dat0 V c).flushed 2 t = ((cfg0.win 2).blk t).view.read (Elt Ideal)
      (Cert.Spec.mm 100000 512 64 (V c main_arg0) (V c main_arg2)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x64) hz]
  obtain ⟨-, -, -, -, e4, e5, ht⟩ := idx t
  funext j
  obtain ⟨a', b, rfl⟩ : ∃ (a' : Fin 4000) (b : Fin 64), j = ix2 a' b := ⟨j 0, j 1, eq_ix2 j⟩
  have hlt : 4000 * t.val + a'.val < 100000 := by have := a'.isLt; omega
  rw [View.read_apply]
  show k0_pay1 (F := Ideal) (iblk0 V c 0 t) (iblk0 V c 1 t) (ix2 a' b) = _
  rw [iblk_w V c t]
  refine (pay (V c main_arg0) (iblk0 V c 0 t) (V c main_arg2) ⟨4000 * t.val + a'.val, hlt⟩ a'
    (fun k => iblk_x V c t a' k ⟨4000 * t.val + a'.val, hlt⟩ rfl) b).trans ?_
  refine congrArg (Cert.Spec.mm 100000 512 64 (V c main_arg0) (V c main_arg2)) ?_
  funext ax; apply Fin.ext
  match ax with
  | ⟨0, _⟩ => show 4000 * t.val + a'.val = win0_2.index t (0 : Fin 2) * 4000 + 1 * a'.val; rw [e4]; omega
  | ⟨1, _⟩ => show b.val = win0_2.index t (1 : Fin 2) * 64 + 1 * b.val; rw [e5]; omega

/-- An index of the result is in point t's block iff each coordinate is in the block's range on its axis. -/
theorem mem_blk (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v30).slice (win0_2.rect t)).set ↔ _
  rw [View.set_slice_whole, Rect.mem_set_unit]
  exact Iff.rfl

/-- The 25 blocks cover the result: row r is in the block of point r / 4000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 25 := N_0
  refine ⟨⟨(i 0).val / 4000, by rw [hN]; omega⟩, flush0_2 _, ?_⟩
  rw [mem_blk]
  obtain ⟨-, -, -, -, e4, e5, -⟩ := idx ⟨(i 0).val / 4000, by rw [hN]; omega⟩
  intro a
  match a with
  | ⟨0, _⟩ =>
    show win0_2.index _ (0 : Fin 2) * 4000 ≤ (i 0).val ∧ (i 0).val < win0_2.index _ (0 : Fin 2) * 4000 + 4000
    rw [e4]; show (i 0).val / 4000 * 4000 ≤ (i 0).val ∧ (i 0).val < (i 0).val / 4000 * 4000 + 4000; omega
  | ⟨1, _⟩ =>
    show win0_2.index _ (1 : Fin 2) * 64 ≤ (i 1).val ∧ (i 1).val < win0_2.index _ (1 : Fin 2) * 64 + 64
    rw [e5]; omega

/-- The result array after the region: the product of the two arrays the region finds. -/
theorem final (c : Dev nD) : (dat0 V c).arrAt 2 cfg0.N = Cert.Spec.mm 100000 512 64 (V c main_arg0) (V c main_arg2) :=
  (dat0 V c).arrAt_eq_of_cover 2 (Cert.Spec.mm 100000 512 64 (V c main_arg0) (V c main_arg2))
    (fun t _ => flushed_eq V c t) cover

end Cert.KernelIdeal.Region0

end
-- ==== Proof.Region1.lean ====
/-
  What the second pipelined matrix product writes, as one function of the arrays it finds.

  The grid has 25 points; at point t the left operand's block is rows 4000·t … 4000·t + 3999 of its array, the right
  operand's block is its whole array, and the block written back is the same rows of the result. The body multiplies
  the left block by the right array on the matrix unit into a zero accumulator (the narrowing of both operands to a
  16-bit format, and the shape cast of the left block to its own shape, are the identity on the extended reals), so row 4000·t + a' of the result is row a' of that product,
  which is row 4000·t + a' of the product of the whole arrays. The 25 blocks cover the result.
-/
import proofs.«137022_j44212393345738_1_alg».proof.Proof.Gen.KernelIdeal.Frame
import proofs.«137022_j44212393345738_1_alg».proof.Proof.Spec
import Idealize.ShloMosaic.Lib.Pipeline.Value
import Idealize.ShloMosaic.Lib.ValueIdx

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at a grid point: the left operand's and the result's block row is the
    point, every other block index is 0. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 25 :=
  (by decide +kernel : ∀ t : Fin grid1.N, _)

/-- The body's product in row a' of a block is the whole product's row a, when the block's row a' is the array's row a. -/
theorem pay (X : FVec Ideal ⟨2, ![100000, 64]⟩ .f32) (x0 : Vec Ideal S4000x64 .f32) (x1 : Vec Ideal S64x32 .f32)
    (a : Fin 100000) (a' : Fin 4000) (h : ∀ k : Fin 64, x0 (ix2 a' k) = X (ix2 a k)) (b : Fin 32) :
    k1_pay1 (F := Ideal) x0 x1 (ix2 a' b) = Cert.Spec.mm 100000 64 32 X x1 (ix2 a b) := by
  show matmul (F := Ideal) (DotDims.plain 4000 64 32) none (shapeCast S4000x64 x0 _) x1
    (constant ⟨2, ![4000, 32]⟩ .f32 0x00000000#32) (ix2 a' b) = _
  rw [shapeCast_self]
  exact Cert.Spec.matmul_rows 100000 64 32 4000 X x0 x1 a a' h b

/-- Row a' of the left operand's block at point t is row 4000·t + a' of its array. -/
theorem iblk_x (c : Dev nD) (t : Fin cfg1.N) (a' : Fin 4000) (k : Fin 64) (a : Fin 100000) (ha : a.val = 4000 * t.val + a'.val) :
    (iblk1 V c 0 t : Vec Ideal S4000x64 .f32) (ix2 a' k) = (V c main_v47 : FVec Ideal ⟨2, ![100000, 64]⟩ .f32) (ix2 a k) := by
  obtain ⟨e0, e1, -⟩ := idx t
  unfold iblk1
  rw [View.read_apply]
  show V c main_v47 _ = V c main_v47 _
  refine congrArg (V c main_v47) ?_
  funext ax; apply Fin.ext
  match ax with
  | ⟨0, _⟩ => show win1_0.index t (0 : Fin 2) * 4000 + 1 * a'.val = a.val; rw [e0, ha]; omega
  | ⟨1, _⟩ => show win1_0.index t (1 : Fin 2) * 64 + 1 * k.val = k.val; rw [e1]; omega

/-- The right operand's block at any point is its whole array. -/
theorem iblk_w (c : Dev nD) (t : Fin cfg1.N) :
    (iblk1 V c 1 t : Vec Ideal S64x32 .f32) = (V c main_arg4 : FVec Ideal ⟨2, ![64, 32]⟩ .f32) := by
  obtain ⟨-, -, e2, e3, -⟩ := idx t
  funext j
  unfold iblk1
  rw [View.read_apply]
  show V c main_arg4 _ = V c main_arg4 _
  refine congrArg (V c main_arg4) ?_
  funext ax; apply Fin.ext
  match ax with
  | ⟨0, _⟩ => show win1_1.index t (0 : Fin 2) * 64 + 1 * (j 0).val = (j 0).val; rw [e2]; omega
  | ⟨1, _⟩ => show win1_1.index t (1 : Fin 2) * 32 + 1 * (j 1).val = (j 1).val; rw [e3]; omega

/-- What point t writes back is block t of the product of the arrays the region finds. -/
theorem flushed_eq (c : Dev nD) (t : Fin cfg1.N) :
    (dat1 V c).flushed 2 t = ((cfg1.win 2).blk t).view.read (Elt Ideal)
      (Cert.Spec.mm 100000 64 32 (V c main_v47) (V c main_arg4)) := by
  show (cfg1.win 2).cut (grid1.coords t) ((dat1 V c).after 2 t) = _
  rw [after1_2]
  unfold out1_2
  rw [View.canon_unit_zero hz]
  simp only [View.ld_unit_zero (S := S4000x64) hz, View.ld_unit_zero (S := S64x32) hz]
  obtain ⟨-, -, -, -, e4, e5, ht⟩ := idx t
  funext j
  obtain ⟨a', b, rfl⟩ : ∃ (a' : Fin 4000) (b : Fin 32), j = ix2 a' b := ⟨j 0, j 1, eq_ix2 j⟩
  have hlt : 4000 * t.val + a'.val < 100000 := by have := a'.isLt; omega
  rw [View.read_apply]
  show k1_pay1 (F := Ideal) (iblk1 V c 0 t) (iblk1 V c 1 t) (ix2 a' b) = _
  rw [iblk_w V c t]
  refine (pay (V c main_v47) (iblk1 V c 0 t) (V c main_arg4) ⟨4000 * t.val + a'.val, hlt⟩ a'
    (fun k => iblk_x V c t a' k ⟨4000 * t.val + a'.val, hlt⟩ rfl) b).trans ?_
  refine congrArg (Cert.Spec.mm 100000 64 32 (V c main_v47) (V c main_arg4)) ?_
  funext ax; apply Fin.ext
  match ax with
  | ⟨0, _⟩ => show 4000 * t.val + a'.val = win1_2.index t (0 : Fin 2) * 4000 + 1 * a'.val; rw [e4]; omega
  | ⟨1, _⟩ => show b.val = win1_2.index t (1 : Fin 2) * 32 + 1 * b.val; rw [e5]; omega

/-- An index of the result is in point t's block iff each coordinate is in the block's range on its axis. -/
theorem mem_blk (t : Fin cfg1.N) (i : S100000x32.Idx) :
    i ∈ ((cfg1.win 2).blk t).view.set ↔ ∀ a : Fin 2, win1_2.index t a * S4000x32.size a ≤ (i a).val ∧ (i a).val < win1_2.index t a * S4000x32.size a + S4000x32.size a := by
  show i ∈ ((View.whole main_v48).slice (win1_2.rect t)).set ↔ _
  rw [View.set_slice_whole, Rect.mem_set_unit]
  exact Iff.rfl

/-- The 25 blocks cover the result: row r is in the block of point r / 4000. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 25 := N_1
  refine ⟨⟨(i 0).val / 4000, by rw [hN]; omega⟩, flush1_2 _, ?_⟩
  rw [mem_blk]
  obtain ⟨-, -, -, -, e4, e5, -⟩ := idx ⟨(i 0).val / 4000, by rw [hN]; omega⟩
  intro a
  match a with
  | ⟨0, _⟩ =>
    show win1_2.index _ (0 : Fin 2) * 4000 ≤ (i 0).val ∧ (i 0).val < win1_2.index _ (0 : Fin 2) * 4000 + 4000
    rw [e4]; show (i 0).val / 4000 * 4000 ≤ (i 0).val ∧ (i 0).val < (i 0).val / 4000 * 4000 + 4000; omega
  | ⟨1, _⟩ =>
    show win1_2.index _ (1 : Fin 2) * 32 ≤ (i 1).val ∧ (i 1).val < win1_2.index _ (1 : Fin 2) * 32 + 32
    rw [e5]; omega

/-- The result array after the region: the product of the two arrays the region finds. -/
theorem final (c : Dev nD) : (dat1 V c).arrAt 2 cfg1.N = Cert.Spec.mm 100000 64 32 (V c main_v47) (V c main_arg4) :=
  (dat1 V c).arrAt_eq_of_cover 2 (Cert.Spec.mm 100000 64 32 (V c main_v47) (V c main_arg4))
    (fun t _ => flushed_eq V c t) cover

end Cert.KernelIdeal.Region1

end
-- ==== Proof.Region2.lean ====
/-
  What the third pipelined matrix product writes, as one function of the arrays it finds.

  The grid has 25 points; at point t the left operand's block is rows 4000·t … 4000·t + 3999 of its array, the right
  operand's block is its whole array, and the block written back is the same rows of the result. The body multiplies
  the left block by the right array on the matrix unit into a zero accumulator (the narrowing of both operands to a
  16-bit format, and the shape cast of the left block to its own shape, are the identity on the extended reals), so row 4000·t + a' of the result is row a' of that product,
  which is row 4000·t + a' of the product of the whole arrays. The 25 blocks cover the result.
-/
import proofs.«137022_j44212393345738_1_alg».proof.Proof.Gen.KernelIdeal.Frame
import proofs.«137022_j44212393345738_1_alg».proof.Proof.Spec
import Idealize.ShloMosaic.Lib.Pipeline.Value
import Idealize.ShloMosaic.Lib.ValueIdx

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at a grid point: the left operand's and the result's block row is the
    point, every other block index is 0. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 25 :=
  (by decide +kernel : ∀ t : Fin grid2.N, _)

/-- The body's product in row a' of a block is the whole product's row a, when the block's row a' is the array's row a. -/
theorem pay (X : FVec Ideal ⟨2, ![100000, 32]⟩ .f32) (x0 : Vec Ideal S4000x32 .f32) (x1 : Vec Ideal S32x16 .f32)
    (a : Fin 100000) (a' : Fin 4000) (h : ∀ k : Fin 32, x0 (ix2 a' k) = X (ix2 a k)) (b : Fin 16) :
    k2_pay1 (F := Ideal) x0 x1 (ix2 a' b) = Cert.Spec.mm 100000 32 16 X x1 (ix2 a b) := by
  show matmul (F := Ideal) (DotDims.plain 4000 32 16) none (shapeCast S4000x32 x0 _) x1
    (constant ⟨2, ![4000, 16]⟩ .f32 0x00000000#32) (ix2 a' b) = _
  rw [shapeCast_self]
  exact Cert.Spec.matmul_rows 100000 32 16 4000 X x0 x1 a a' h b

/-- Row a' of the left operand's block at point t is row 4000·t + a' of its array. -/
theorem iblk_x (c : Dev nD) (t : Fin cfg2.N) (a' : Fin 4000) (k : Fin 32) (a : Fin 100000) (ha : a.val = 4000 * t.val + a'.val) :
    (iblk2 V c 0 t : Vec Ideal S4000x32 .f32) (ix2 a' k) = (V c main_v65 : FVec Ideal ⟨2, ![100000, 32]⟩ .f32) (ix2 a k) := by
  obtain ⟨e0, e1, -⟩ := idx t
  unfold iblk2
  rw [View.read_apply]
  show V c main_v65 _ = V c main_v65 _
  refine congrArg (V c main_v65) ?_
  funext ax; apply Fin.ext
  match ax with
  | ⟨0, _⟩ => show win2_0.index t (0 : Fin 2) * 4000 + 1 * a'.val = a.val; rw [e0, ha]; omega
  | ⟨1, _⟩ => show win2_0.index t (1 : Fin 2) * 32 + 1 * k.val = k.val; rw [e1]; omega

/-- The right operand's block at any point is its whole array. -/
theorem iblk_w (c : Dev nD) (t : Fin cfg2.N) :
    (iblk2 V c 1 t : Vec Ideal S32x16 .f32) = (V c main_arg6 : FVec Ideal ⟨2, ![32, 16]⟩ .f32) := by
  obtain ⟨-, -, e2, e3, -⟩ := idx t
  funext j
  unfold iblk2
  rw [View.read_apply]
  show V c main_arg6 _ = V c main_arg6 _
  refine congrArg (V c main_arg6) ?_
  funext ax; apply Fin.ext
  match ax with
  | ⟨0, _⟩ => show win2_1.index t (0 : Fin 2) * 32 + 1 * (j 0).val = (j 0).val; rw [e2]; omega
  | ⟨1, _⟩ => show win2_1.index t (1 : Fin 2) * 16 + 1 * (j 1).val = (j 1).val; rw [e3]; omega

/-- What point t writes back is block t of the product of the arrays the region finds. -/
theorem flushed_eq (c : Dev nD) (t : Fin cfg2.N) :
    (dat2 V c).flushed 2 t = ((cfg2.win 2).blk t).view.read (Elt Ideal)
      (Cert.Spec.mm 100000 32 16 (V c main_v65) (V c main_arg6)) := by
  show (cfg2.win 2).cut (grid2.coords t) ((dat2 V c).after 2 t) = _
  rw [after2_2]
  unfold out2_2
  rw [View.canon_unit_zero hz]
  simp only [View.ld_unit_zero (S := S4000x32) hz, View.ld_unit_zero (S := S32x16) hz]
  obtain ⟨-, -, -, -, e4, e5, ht⟩ := idx t
  funext j
  obtain ⟨a', b, rfl⟩ : ∃ (a' : Fin 4000) (b : Fin 16), j = ix2 a' b := ⟨j 0, j 1, eq_ix2 j⟩
  have hlt : 4000 * t.val + a'.val < 100000 := by have := a'.isLt; omega
  rw [View.read_apply]
  show k2_pay1 (F := Ideal) (iblk2 V c 0 t) (iblk2 V c 1 t) (ix2 a' b) = _
  rw [iblk_w V c t]
  refine (pay (V c main_v65) (iblk2 V c 0 t) (V c main_arg6) ⟨4000 * t.val + a'.val, hlt⟩ a'
    (fun k => iblk_x V c t a' k ⟨4000 * t.val + a'.val, hlt⟩ rfl) b).trans ?_
  refine congrArg (Cert.Spec.mm 100000 32 16 (V c main_v65) (V c main_arg6)) ?_
  funext ax; apply Fin.ext
  match ax with
  | ⟨0, _⟩ => show 4000 * t.val + a'.val = win2_2.index t (0 : Fin 2) * 4000 + 1 * a'.val; rw [e4]; omega
  | ⟨1, _⟩ => show b.val = win2_2.index t (1 : Fin 2) * 16 + 1 * b.val; rw [e5]; omega

/-- An index of the result is in point t's block iff each coordinate is in the block's range on its axis. -/
theorem mem_blk (t : Fin cfg2.N) (i : S100000x16.Idx) :
    i ∈ ((cfg2.win 2).blk t).view.set ↔ ∀ a : Fin 2, win2_2.index t a * S4000x16.size a ≤ (i a).val ∧ (i a).val < win2_2.index t a * S4000x16.size a + S4000x16.size a := by
  show i ∈ ((View.whole main_v66).slice (win2_2.rect t)).set ↔ _
  rw [View.set_slice_whole, Rect.mem_set_unit]
  exact Iff.rfl

/-- The 25 blocks cover the result: row r is in the block of point r / 4000. -/
theorem cover (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 25 := N_2
  refine ⟨⟨(i 0).val / 4000, by rw [hN]; omega⟩, flush2_2 _, ?_⟩
  rw [mem_blk]
  obtain ⟨-, -, -, -, e4, e5, -⟩ := idx ⟨(i 0).val / 4000, by rw [hN]; omega⟩
  intro a
  match a with
  | ⟨0, _⟩ =>
    show win2_2.index _ (0 : Fin 2) * 4000 ≤ (i 0).val ∧ (i 0).val < win2_2.index _ (0 : Fin 2) * 4000 + 4000
    rw [e4]; show (i 0).val / 4000 * 4000 ≤ (i 0).val ∧ (i 0).val < (i 0).val / 4000 * 4000 + 4000; omega
  | ⟨1, _⟩ =>
    show win2_2.index _ (1 : Fin 2) * 16 ≤ (i 1).val ∧ (i 1).val < win2_2.index _ (1 : Fin 2) * 16 + 16
    rw [e5]; omega

/-- The result array after the region: the product of the two arrays the region finds. -/
theorem final (c : Dev nD) : (dat2 V c).arrAt 2 cfg2.N = Cert.Spec.mm 100000 32 16 (V c main_v65) (V c main_arg6) :=
  (dat2 V c).arrAt_eq_of_cover 2 (Cert.Spec.mm 100000 32 16 (V c main_v65) (V c main_arg6))
    (fun t _ => flushed_eq V c t) cover

end Cert.KernelIdeal.Region2

end
-- ==== Proof.LibDenseStage.lean ====
/-
  A dense stage on the extended reals, in the two spellings that lower from "x @ w + b, then relu".
  For an M×K array x, a K×N weight w and a bias given as a one-row array b (shape [1, N]), the stage is
      (a, c) ↦ max (Σ_{k<K} x(a,k)·w(k,c) + b(0,c)) 0 .
  * stage_of_matmul: a matrix unit's product over the plain M×K by K×N dimension numbers into a zero accumulator, both
    operands first narrowed to a 16-bit float format (the identity on the extended reals), plus the bias row (shape-cast to
    its own shape) broadcast over the rows, then a maximum with a splat of the scalar word 0, is the stage.
  * stage_of_dotGeneral: the host's product over the same dimension numbers, plus the bias row broadcast along the axes
    [0, 1], then a maximum with a rank-0 constant 0 broadcast along no axis, is the stage.
  * stage_rows: a stage's value in a row depends on x only through that row, so a block of rows of x gives that block of
    the stage (for kernels that tile the rows over a grid).
  * row_broadcastTo, row_broadcastInDim: a one-row array spread over M rows reads its entry of the same column.
  Over the library and the plain-product lemmas only; every extent is a variable.
-/
import Idealize.ShloMosaic.PureOps.Ideal.Laws
import Idealize.ShloMosaic.Lib.ValueIdx
import Idealize.ShloMosaic.Lib.Pipeline.Value
import proofs.«137022_j44212393345738_1_alg».proof.Proof.LibPlainDot

noncomputable section

namespace Cert.LibDenseStage

open Idealize.ShloMosaic Idealize.ShloMosaic.ValueIdx

variable (M K N : Nat)

/-- x·w plus the bias row, cut off below at 0. -/
def stage (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (∑ k : Fin K, x (ix2 (i 0) k) * w (ix2 k (i 1)) + b (ix2 (0 : Fin 1) (i 1))) 0

theorem stage_apply (x : FVec Ideal ⟨2, ![M, K]⟩ .f32) (w : FVec Ideal ⟨2, ![K, N]⟩ .f32) (b : FVec Ideal ⟨2, ![1, N]⟩ .f32)
    (a : Fin M) (c : Fin N) :
    stage M K N x w b (ix2 a c) = max (∑ k : Fin K, x (ix2 a k) * w (ix2 k c) + b (ix2 (0 : Fin 1) c)) 0 := rfl

/-- The stage in row a' of a block is the stage in row a of the whole, when the block's row a' is the whole's row a. -/
theorem stage_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    stage M' K N x w b (ix2 a' c) = stage M K N X w b (ix2 a c) := by
  rw [stage_apply, stage_apply]
  exact congrArg (fun s => max (s + b (ix2 (0 : Fin 1) c)) 0) (Finset.sum_congr rfl fun k _ => by rw [h k])

/-- The bias row spread over M rows reads, at (a, c), the row's entry c. -/
theorem row_broadcastTo (b : FVec Ideal ⟨2, ![1, N]⟩ .f32) (hb : (⟨2, ![1, N]⟩ : Shape).Broadcasts ⟨2, ![M, N]⟩) (a : Fin M) (c : Fin N) :
    broadcastTo ⟨2, ![M, N]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The same by a broadcast along the two named axes. -/
theorem row_broadcastInDim (b : FVec Ideal ⟨2, ![1, N]⟩ .f32)
    (hb : (⟨2, ![1, N]⟩ : Shape).BroadcastsInDim ⟨2, ![M, N]⟩ (![0, 1] : Fin 2 → Fin 2)) (a : Fin M) (c : Fin N) :
    broadcastInDim ⟨2, ![M, N]⟩ ![0, 1] hb b (ix2 a c) = b (ix2 (0 : Fin 1) c) :=
  broadcastInDim_apply (![0, 1] : Fin 2 → Fin 2) hb b (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The matrix unit's spelling of a stage. -/
theorem stage_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = stage M K N x w b := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, shapeCast_self, row_broadcastTo, stage_apply]
  exact congrArg (max _) Ideal.ofBits_zero_f32

/-- The host's spelling of a stage. -/
theorem stage_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none x w) (broadcastInDim ⟨2, ![M, N]⟩ ![0, 1] hb b))
      (broadcastInDim ⟨2, ![M, N]⟩ ![] h0 (constant (F := Ideal) ⟨0, ![]⟩ .f32 0x00000000#32))
      = stage M K N x w b := by
  funext i
  obtain ⟨a, c, rfl⟩ : ∃ (a : Fin M) (c : Fin N), i = ix2 a c := ⟨i 0, i 1, eq_ix2 i⟩
  rw [maximumf_apply, addf_apply, Cert.LibPlainDot.dotGeneral_plain, row_broadcastInDim, stage_apply,
    broadcastInDim_apply (![] : Fin 0 → Fin 2) h0 _ (ix2 a c) ix0 (fun ax => ax.elim0), constant_apply]
  exact congrArg (max _) Ideal.ofBits_zero_f32

end Cert.LibDenseStage

end
-- ==== Proof.Region3.lean ====
/-
  What the last pipelined matrix product, with its bias, writes, as one function of the arrays it finds.

  The grid has 25 points; at point t the left operand's block is rows 4000·t … 4000·t + 3999 of its array, the weight's
  and the bias row's blocks are their whole arrays, and the block written back is the same rows of the result. The body
  multiplies the left block by the weight on the matrix unit into a zero accumulator (the narrowing of both operands to a
  16-bit format and the shape casts of the left block and of the bias row to their own shapes are the identity on the
  extended reals) and adds the bias row spread over the block's rows. So row 4000·t + a' of the result is row
  4000·t + a' of the whole product plus the bias row. The 25 blocks cover the result.
-/
import proofs.«137022_j44212393345738_1_alg».proof.Proof.Gen.KernelIdeal.Frame
import proofs.«137022_j44212393345738_1_alg».proof.Proof.Spec
import proofs.«137022_j44212393345738_1_alg».proof.Proof.LibDenseStage
import Idealize.ShloMosaic.Lib.Pipeline.Value
import Idealize.ShloMosaic.Lib.ValueIdx

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the four windows at a grid point: the left operand's and the result's block row is the
    point, every other block index is 0. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 25 :=
  (by decide +kernel : ∀ t : Fin grid3.N, _)

/-- The body's value in row a' of a block is the whole product's row a plus the bias row, when the block's row a' is
    the array's row a. -/
theorem pay (X : FVec Ideal ⟨2, ![100000, 16]⟩ .f32) (x0 : Vec Ideal S4000x16 .f32) (x1 : Vec Ideal S16x7 .f32)
    (x2 : Vec Ideal S1x7 .f32) (a : Fin 100000) (a' : Fin 4000) (h : ∀ k : Fin 16, x0 (ix2 a' k) = X (ix2 a k)) (b : Fin 7) :
    k3_pay1 (F := Ideal) x0 x1 x2 (ix2 a' b) = Cert.Spec.mmb 100000 16 7 X x1 x2 (ix2 a b) := by
  show (matmul (F := Ideal) (DotDims.plain 4000 16 7) none (shapeCast S4000x16 x0 _) x1
      (constant ⟨2, ![4000, 7]⟩ .f32 0x00000000#32) (ix2 a' b) : EReal)
    + broadcastTo S4000x7 (shapeCast S1x7 x2 _) _ (ix2 a' b) = _
  rw [shapeCast_self, shapeCast_self, Cert.LibDenseStage.row_broadcastTo 4000 7]
  exact congrArg (fun s : EReal => s + x2 (ix2 (0 : Fin 1) b)) (Cert.Spec.matmul_rows 100000 16 7 4000 X x0 x1 a a' h b)

/-- Row a' of the left operand's block at point t is row 4000·t + a' of its array. -/
theorem iblk_x (c : Dev nD) (t : Fin cfg3.N) (a' : Fin 4000) (k : Fin 16) (a : Fin 100000) (ha : a.val = 4000 * t.val + a'.val) :
    (iblk3 V c 0 t : Vec Ideal S4000x16 .f32) (ix2 a' k) = (V c main_v82 : FVec Ideal ⟨2, ![100000, 16]⟩ .f32) (ix2 a k) := by
  obtain ⟨e0, e1, -⟩ := idx t
  unfold iblk3
  rw [View.read_apply]
  show V c main_v82 _ = V c main_v82 _
  refine congrArg (V c main_v82) ?_
  funext ax; apply Fin.ext
  match ax with
  | ⟨0, _⟩ => show win3_0.index t (0 : Fin 2) * 4000 + 1 * a'.val = a.val; rw [e0, ha]; omega
  | ⟨1, _⟩ => show win3_0.index t (1 : Fin 2) * 16 + 1 * k.val = k.val; rw [e1]; omega

/-- The weight's block at any point is its whole array. -/
theorem iblk_w (c : Dev nD) (t : Fin cfg3.N) :
    (iblk3 V c 1 t : Vec Ideal S16x7 .f32) = (V c main_arg8 : FVec Ideal ⟨2, ![16, 7]⟩ .f32) := by
  obtain ⟨-, -, e2, e3, -⟩ := idx t
  funext j
  unfold iblk3
  rw [View.read_apply]
  show V c main_arg8 _ = V c main_arg8 _
  refine congrArg (V c main_arg8) ?_
  funext ax; apply Fin.ext
  match ax with
  | ⟨0, _⟩ => show win3_1.index t (0 : Fin 2) * 16 + 1 * (j 0).val = (j 0).val; rw [e2]; omega
  | ⟨1, _⟩ => show win3_1.index t (1 : Fin 2) * 7 + 1 * (j 1).val = (j 1).val; rw [e3]; omega

/-- The bias row's block at any point is its whole array. -/
theorem iblk_b (c : Dev nD) (t : Fin cfg3.N) :
    (iblk3 V c 2 t : Vec Ideal S1x7 .f32) = (V c main_v83 : FVec Ideal ⟨2, ![1, 7]⟩ .f32) := by
  obtain ⟨-, -, -, -, e4, e5, -⟩ := idx t
  funext j
  unfold iblk3
  rw [View.read_apply]
  show V c main_v83 _ = V c main_v83 _
  refine congrArg (V c main_v83) ?_
  funext ax; apply Fin.ext
  match ax with
  | ⟨0, _⟩ => show win3_2.index t (0 : Fin 2) * 1 + 1 * (j 0).val = (j 0).val; rw [e4]; omega
  | ⟨1, _⟩ => show win3_2.index t (1 : Fin 2) * 7 + 1 * (j 1).val = (j 1).val; rw [e5]; omega

/-- What point t writes back is block t of the product plus the bias row, of the arrays the region finds. -/
theorem flushed_eq (c : Dev nD) (t : Fin cfg3.N) :
    (dat3 V c).flushed 3 t = ((cfg3.win 3).blk t).view.read (Elt Ideal)
      (Cert.Spec.mmb 100000 16 7 (V c main_v82) (V c main_arg8) (V c main_v83)) := by
  show (cfg3.win 3).cut (grid3.coords t) ((dat3 V c).after 3 t) = _
  rw [after3_3]
  unfold out3_3
  rw [View.canon_unit_zero hz]
  simp only [View.ld_unit_zero (S := S4000x16) hz, View.ld_unit_zero (S := S16x7) hz, View.ld_unit_zero (S := S1x7) hz]
  obtain ⟨-, -, -, -, -, -, e6, e7, ht⟩ := idx t
  funext j
  obtain ⟨a', b, rfl⟩ : ∃ (a' : Fin 4000) (b : Fin 7), j = ix2 a' b := ⟨j 0, j 1, eq_ix2 j⟩
  have hlt : 4000 * t.val + a'.val < 100000 := by have := a'.isLt; omega
  rw [View.read_apply]
  show k3_pay1 (F := Ideal) (iblk3 V c 0 t) (iblk3 V c 1 t) (iblk3 V c 2 t) (ix2 a' b) = _
  rw [iblk_w V c t, iblk_b V c t]
  refine (pay (V c main_v82) (iblk3 V c 0 t) (V c main_arg8) (V c main_v83) ⟨4000 * t.val + a'.val, hlt⟩ a'
    (fun k => iblk_x V c t a' k ⟨4000 * t.val + a'.val, hlt⟩ rfl) b).trans ?_
  refine congrArg (Cert.Spec.mmb 100000 16 7 (V c main_v82) (V c main_arg8) (V c main_v83)) ?_
  funext ax; apply Fin.ext
  match ax with
  | ⟨0, _⟩ => show 4000 * t.val + a'.val = win3_3.index t (0 : Fin 2) * 4000 + 1 * a'.val; rw [e6]; omega
  | ⟨1, _⟩ => show b.val = win3_3.index t (1 : Fin 2) * 7 + 1 * b.val; rw [e7]; omega

/-- An index of the result is in point t's block iff each coordinate is in the block's range on its axis. -/
theorem mem_blk (t : Fin cfg3.N) (i : S100000x7.Idx) :
    i ∈ ((cfg3.win 3).blk t).view.set ↔ ∀ a : Fin 2, win3_3.index t a * S4000x7.size a ≤ (i a).val ∧ (i a).val < win3_3.index t a * S4000x7.size a + S4000x7.size a := by
  show i ∈ ((View.whole main_v84).slice (win3_3.rect t)).set ↔ _
  rw [View.set_slice_whole, Rect.mem_set_unit]
  exact Iff.rfl

/-- The 25 blocks cover the result: row r is in the block of point r / 4000. -/
theorem cover (i : S100000x7.Idx) : ∃ t : Fin cfg3.N, (cfg3.win 3).flush t = true ∧ i ∈ ((cfg3.win 3).blk t).view.set := by
  have hi0 : (i 0).val < 100000 := (i 0).isLt
  have hi1 : (i 1).val < 7 := (i 1).isLt
  have hN : cfg3.N = 25 := N_3
  refine ⟨⟨(i 0).val / 4000, by rw [hN]; omega⟩, flush3_3 _, ?_⟩
  rw [mem_blk]
  obtain ⟨-, -, -, -, -, -, e6, e7, -⟩ := idx ⟨(i 0).val / 4000, by rw [hN]; omega⟩
  intro a
  match a with
  | ⟨0, _⟩ =>
    show win3_3.index _ (0 : Fin 2) * 4000 ≤ (i 0).val ∧ (i 0).val < win3_3.index _ (0 : Fin 2) * 4000 + 4000
    rw [e6]; show (i 0).val / 4000 * 4000 ≤ (i 0).val ∧ (i 0).val < (i 0).val / 4000 * 4000 + 4000; omega
  | ⟨1, _⟩ =>
    show win3_3.index _ (1 : Fin 2) * 7 ≤ (i 1).val ∧ (i 1).val < win3_3.index _ (1 : Fin 2) * 7 + 7
    rw [e7]; omega

/-- The result array after the region: the product of the two arrays the region finds, plus the bias row. -/
theorem final (c : Dev nD) : (dat3 V c).arrAt 3 cfg3.N
    = Cert.Spec.mmb 100000 16 7 (V c main_v82) (V c main_arg8) (V c main_v83) :=
  (dat3 V c).arrAt_eq_of_cover 3 (Cert.Spec.mmb 100000 16 7 (V c main_v82) (V c main_arg8) (V c main_v83))
    (fun t _ => flushed_eq V c t) cover

end Cert.KernelIdeal.Region3

end
-- ==== Proof.KValue.lean ====
/-
  The idealized kernel program's result as the network function of its arguments.

  The contents of a core's buffers are followed from the launch through the program's segments: a host stretch is read
  by the shared host functions (Cert.KernelIdeal.Host), a pipelined product by the product of the two arrays it finds
  (Cert.KernelIdeal.Region0 … Region3), and a buffer that a segment does not write is carried over unchanged. The
  edge lists, the edge weights and the parameter arrays are carried from the first stretch to where they are read.
-/
import proofs.«137022_j44212393345738_1_alg».proof.Proof.KHost
import proofs.«137022_j44212393345738_1_alg».proof.Proof.NetSpec
import proofs.«137022_j44212393345738_1_alg».proof.Proof.Region0
import proofs.«137022_j44212393345738_1_alg».proof.Proof.Region1
import proofs.«137022_j44212393345738_1_alg».proof.Proof.Region2
import proofs.«137022_j44212393345738_1_alg».proof.Proof.Region3
import Idealize.ShloMosaic.Lib.Pipeline.Value
import Idealize.ShloMosaic.Lib.ValueLayout

noncomputable section

namespace Cert.KernelIdeal.KValue

open Cert.KernelIdeal Cert.KernelIdeal.Gen Cert.KernelIdeal.Host
open Idealize.ShloMosaic Idealize.ShloMosaic.TcCoe Idealize.SL.Sem Idealize.ShloMosaic.StableHlo Idealize.ShloMosaic.ValueIdx
open Cert.HostSpec (srcOf dstOf degOf posOf disOf wrap normOf normE agg64 agg32 agg16 relu64 relu32)
open Cert.Spec (mm mmb)
open Cert.NetSpec (layer1 layer2 layer3 row7 net)

variable (m : (ℓ : Loc nD τ sig) → Buf (Elt Ideal) ℓ) (ρ : Dev nD → PrngReg) (c : Dev nD)

/-! ## Up to the first product -/

/-- A buffer none of the first three stretches writes is as launched when the first product starts. -/
theorem W3_keep {r : Ref sig .tc} (h0 : r ∉ wr_w0) (h1 : r ∉ wr_w0_1) (h2 : r ∉ wr_w0_2) :
    W3 m ρ c (Proc.devRef .tc r) = W0 m ρ c (Proc.devRef .tc r) :=
  (keep_w0_2 (W2 m ρ c) h2).trans ((keep_w0_1 (W1 m ρ c) h1).trans (keep_w0 (W0 m ρ c) h0))

theorem W3_v3 : W3 m ρ c (Proc.devRef .tc main_v3) = srcOf (W0 m ρ c (Proc.devRef .tc main_arg1)) :=
  (keep_w0_2 (W2 m ρ c) (by decide)).trans ((keep_w0_1 (W1 m ρ c) (by decide)).trans (w0_v3 (W0 m ρ c)))

theorem W3_v6 : W3 m ρ c (Proc.devRef .tc main_v6) = dstOf (W0 m ρ c (Proc.devRef .tc main_arg1)) :=
  (keep_w0_2 (W2 m ρ c) (by decide)).trans ((keep_w0_1 (W1 m ρ c) (by decide)).trans (w0_v6 (W0 m ρ c)))

theorem W3_v29 : W3 m ρ c (Proc.devRef .tc main_v29) = normE (W0 m ρ c (Proc.devRef .tc main_arg1)) := by
  dsimp only [W3, W2, W1]
  rw [w0_2_v29, w0_1_v14, keep_w0_1 _ (r := main_v3) (by decide), keep_w0_1 _ (r := main_v6) (by decide), w0_v12, w0_v13, w0_cst_2,
    w0_v3, w0_v6]
  rfl

/-! ## The first product and the first layer -/

theorem W4_v30 : W4 m ρ c (Proc.devRef .tc main_v30) = mm 100000 512 64 (W0 m ρ c (Proc.devRef .tc main_arg0)) (W0 m ρ c (Proc.devRef .tc main_arg2)) := by
  refine (W4_arr m ρ c 2).trans ((Cert.KernelIdeal.Region0.final (V3 m ρ) c).trans ?_)
  show mm 100000 512 64 (W3 m ρ c (Proc.devRef .tc main_arg0)) (W3 m ρ c (Proc.devRef .tc main_arg2)) = _
  rw [W3_keep m ρ c (r := main_arg0) (by decide) (by decide) (by decide), W3_keep m ρ c (r := main_arg2) (by decide) (by decide) (by decide)]

/-- A buffer the first product and the two stretches after it do not write is carried to the second product. -/
theorem W6_keep {r : Ref sig .tc} (h : ∀ w, Pipeline.arrRef spec0 w ≠ r) (h1 : r ∉ wr_w1) (h2 : r ∉ wr_w1_1) :
    W6 m ρ c (Proc.devRef .tc r) = W3 m ρ c (Proc.devRef .tc r) :=
  (keep_w1_1 (W5 m ρ c) h2).trans ((keep_w1 (W4 m ρ c) h1).trans (W4_of_ne m ρ c r h))

theorem W6_v47 : W6 m ρ c (Proc.devRef .tc main_v47) = layer1 (W0 m ρ c (Proc.devRef .tc main_arg0)) (W0 m ρ c (Proc.devRef .tc main_arg1)) (W0 m ρ c (Proc.devRef .tc main_arg2)) (W0 m ρ c (Proc.devRef .tc main_arg3)) := by
  dsimp only [W6, W5]
  rw [w1_1_v47, w1_v46, W4_v30, W4_of_ne m ρ c main_v3 (by decide), W4_of_ne m ρ c main_v6 (by decide), W4_of_ne m ρ c main_v29 (by decide),
    W4_of_ne m ρ c main_arg3 (by decide), W3_v3, W3_v6, W3_v29, W3_keep m ρ c (r := main_arg3) (by decide) (by decide) (by decide)]
  rfl

/-! ## The second product and the second layer -/

theorem W7_v48 : W7 m ρ c (Proc.devRef .tc main_v48) = mm 100000 64 32 (layer1 (W0 m ρ c (Proc.devRef .tc main_arg0)) (W0 m ρ c (Proc.devRef .tc main_arg1)) (W0 m ρ c (Proc.devRef .tc main_arg2)) (W0 m ρ c (Proc.devRef .tc main_arg3))) (W0 m ρ c (Proc.devRef .tc main_arg4)) := by
  refine (W7_arr m ρ c 2).trans ((Cert.KernelIdeal.Region1.final (V6 m ρ) c).trans ?_)
  show mm 100000 64 32 (W6 m ρ c (Proc.devRef .tc main_v47)) (W6 m ρ c (Proc.devRef .tc main_arg4)) = _
  rw [W6_v47, W6_keep m ρ c (r := main_arg4) (by decide) (by decide) (by decide), W3_keep m ρ c (r := main_arg4) (by decide) (by decide) (by decide)]

/-- A buffer the second product and the two stretches after it do not write is carried to the third product. -/
theorem W9_keep {r : Ref sig .tc} (h : ∀ w, Pipeline.arrRef spec1 w ≠ r) (h1 : r ∉ wr_w2) (h2 : r ∉ wr_w2_1) :
    W9 m ρ c (Proc.devRef .tc r) = W6 m ρ c (Proc.devRef .tc r) :=
  (keep_w2_1 (W8 m ρ c) h2).trans ((keep_w2 (W7 m ρ c) h1).trans (W7_of_ne m ρ c r h))

/-- The same from the launch, for a buffer no segment up to the third product writes. -/
theorem W9_keep0 {r : Ref sig .tc} (h0 : r ∉ wr_w0) (h1 : r ∉ wr_w0_1) (h2 : r ∉ wr_w0_2)
    (h3 : ∀ w, Pipeline.arrRef spec0 w ≠ r) (h4 : r ∉ wr_w1) (h5 : r ∉ wr_w1_1)
    (h6 : ∀ w, Pipeline.arrRef spec1 w ≠ r) (h7 : r ∉ wr_w2) (h8 : r ∉ wr_w2_1) :
    W9 m ρ c (Proc.devRef .tc r) = W0 m ρ c (Proc.devRef .tc r) :=
  (W9_keep m ρ c h6 h7 h8).trans ((W6_keep m ρ c h3 h4 h5).trans (W3_keep m ρ c h0 h1 h2))

theorem W9_v3 : W9 m ρ c (Proc.devRef .tc main_v3) = srcOf (W0 m ρ c (Proc.devRef .tc main_arg1)) :=
  (W9_keep m ρ c (by decide) (by decide) (by decide)).trans ((W6_keep m ρ c (by decide) (by decide) (by decide)).trans (W3_v3 m ρ c))
theorem W9_v6 : W9 m ρ c (Proc.devRef .tc main_v6) = dstOf (W0 m ρ c (Proc.devRef .tc main_arg1)) :=
  (W9_keep m ρ c (by decide) (by decide) (by decide)).trans ((W6_keep m ρ c (by decide) (by decide) (by decide)).trans (W3_v6 m ρ c))
theorem W9_v29 : W9 m ρ c (Proc.devRef .tc main_v29) = normE (W0 m ρ c (Proc.devRef .tc main_arg1)) :=
  (W9_keep m ρ c (by decide) (by decide) (by decide)).trans ((W6_keep m ρ c (by decide) (by decide) (by decide)).trans (W3_v29 m ρ c))

theorem W9_v65 : W9 m ρ c (Proc.devRef .tc main_v65)
    = layer2 (layer1 (W0 m ρ c (Proc.devRef .tc main_arg0)) (W0 m ρ c (Proc.devRef .tc main_arg1)) (W0 m ρ c (Proc.devRef .tc main_arg2)) (W0 m ρ c (Proc.devRef .tc main_arg3))) (W0 m ρ c (Proc.devRef .tc main_arg1)) (W0 m ρ c (Proc.devRef .tc main_arg4)) (W0 m ρ c (Proc.devRef .tc main_arg5)) := by
  dsimp only [W9, W8]
  rw [w2_1_v65, w2_v64, W7_v48, W7_of_ne m ρ c main_v3 (by decide), W7_of_ne m ρ c main_v6 (by decide), W7_of_ne m ρ c main_v29 (by decide),
    W7_of_ne m ρ c main_arg5 (by decide),
    W6_keep m ρ c (r := main_v3) (by decide) (by decide) (by decide), W6_keep m ρ c (r := main_v6) (by decide) (by decide) (by decide),
    W6_keep m ρ c (r := main_v29) (by decide) (by decide) (by decide), W6_keep m ρ c (r := main_arg5) (by decide) (by decide) (by decide),
    W3_v3, W3_v6, W3_v29, W3_keep m ρ c (r := main_arg5) (by decide) (by decide) (by decide)]
  rfl

/-! ## The third product and the third layer -/

theorem W10_v66 : W10 m ρ c (Proc.devRef .tc main_v66)
    = mm 100000 32 16 (layer2 (layer1 (W0 m ρ c (Proc.devRef .tc main_arg0)) (W0 m ρ c (Proc.devRef .tc main_arg1)) (W0 m ρ c (Proc.devRef .tc main_arg2)) (W0 m ρ c (Proc.devRef .tc main_arg3))) (W0 m ρ c (Proc.devRef .tc main_arg1)) (W0 m ρ c (Proc.devRef .tc main_arg4)) (W0 m ρ c (Proc.devRef .tc main_arg5))) (W0 m ρ c (Proc.devRef .tc main_arg6)) := by
  refine (W10_arr m ρ c 2).trans ((Cert.KernelIdeal.Region2.final (V9 m ρ) c).trans ?_)
  show mm 100000 32 16 (W9 m ρ c (Proc.devRef .tc main_v65)) (W9 m ρ c (Proc.devRef .tc main_arg6)) = _
  rw [W9_v65, W9_keep0 m ρ c (r := main_arg6) (by decide) (by decide) (by decide) (by decide) (by decide) (by decide) (by decide) (by decide) (by decide)]

/-- A buffer the third product and the stretch after it do not write is carried to the last product. -/
theorem W11_keep {r : Ref sig .tc} (h : ∀ w, Pipeline.arrRef spec2 w ≠ r) (h1 : r ∉ wr_w3) :
    W11 m ρ c (Proc.devRef .tc r) = W9 m ρ c (Proc.devRef .tc r) :=
  (keep_w3 (W10 m ρ c) h1).trans (W10_of_ne m ρ c r h)

theorem W11_v82 : W11 m ρ c (Proc.devRef .tc main_v82)
    = layer3 (layer2 (layer1 (W0 m ρ c (Proc.devRef .tc main_arg0)) (W0 m ρ c (Proc.devRef .tc main_arg1)) (W0 m ρ c (Proc.devRef .tc main_arg2)) (W0 m ρ c (Proc.devRef .tc main_arg3))) (W0 m ρ c (Proc.devRef .tc main_arg1)) (W0 m ρ c (Proc.devRef .tc main_arg4)) (W0 m ρ c (Proc.devRef .tc main_arg5))) (W0 m ρ c (Proc.devRef .tc main_arg1)) (W0 m ρ c (Proc.devRef .tc main_arg6)) (W0 m ρ c (Proc.devRef .tc main_arg7)) := by
  dsimp only [W11]
  rw [w3_v82, W10_v66, W10_of_ne m ρ c main_v3 (by decide), W10_of_ne m ρ c main_v6 (by decide), W10_of_ne m ρ c main_v29 (by decide),
    W10_of_ne m ρ c main_arg7 (by decide), W9_v3, W9_v6, W9_v29,
    W9_keep0 m ρ c (r := main_arg7) (by decide) (by decide) (by decide) (by decide) (by decide) (by decide) (by decide) (by decide) (by decide)]
  rfl

theorem W11_v83 : W11 m ρ c (Proc.devRef .tc main_v83) = shapeCast S1x7 (W0 m ρ c (Proc.devRef .tc main_arg9)) Facts₀.shapeCasts_S7_S1x7 := by
  dsimp only [W11]
  rw [w3_v83, W10_of_ne m ρ c main_arg9 (by decide), W9_keep0 m ρ c (r := main_arg9) (by decide) (by decide) (by decide) (by decide) (by decide) (by decide) (by decide) (by decide) (by decide)]

theorem W11_arg8 : W11 m ρ c (Proc.devRef .tc main_arg8) = (W0 m ρ c (Proc.devRef .tc main_arg8)) :=
  (W11_keep m ρ c (by decide) (by decide)).trans (W9_keep0 m ρ c (by decide) (by decide) (by decide) (by decide) (by decide) (by decide) (by decide) (by decide) (by decide))

/-! ## The last product -/

/-- A length-7 vector shape-cast to a one-row array reads the vector's entry. -/
theorem shapeCast_row7 (b : FVec Ideal S7 .f32) (h : S7.ShapeCasts S1x7) : shapeCast S1x7 b h = row7 b := by
  funext i
  refine shapeCast_apply b h i (ix1 (i 1)) ?_
  have h0 : (i 0).val < 1 := (i 0).isLt
  rw [Shape.rowMajor_val_one, Shape.rowMajor_val_two]
  show (i 1).val = (i 0).val * 7 + (i 1).val
  omega

/-- The program's result buffer at the end: the network of the arguments as launched. -/
theorem result (m : (ℓ : Loc nD τ sig) → Buf (Elt Ideal) ℓ) (ρ : Dev nD → PrngReg) (c : Dev nD) :
    W12 m ρ c (Proc.devRef .tc main_v84)
      = net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine (W12_arr m ρ c 3).trans ((Cert.KernelIdeal.Region3.final (V11 m ρ) c).trans ?_)
  show mmb 100000 16 7 (W11 m ρ c (Proc.devRef .tc main_v82)) (W11 m ρ c (Proc.devRef .tc main_arg8))
    (W11 m ρ c (Proc.devRef .tc main_v83)) = _
  rw [W11_v82, W11_arg8, W11_v83, shapeCast_row7]
  rfl

end Cert.KernelIdeal.KValue

end
-- ==== Proof.RHost.lean ====
/-
  The idealized reference program's host operations, window by window, from ANY contents W of the device's buffers.

  The program is one line of 110 host operations. Cut at its four matrix products it reads as the same stretches the
  kernel program has between its pipelined products: what each window leaves in the buffers that later windows read
  is the shared host function (Cert.HostSpec) of what it finds in W, each product is the host's dot_general of the two
  buffers it reads, and a window leaves every buffer it does not write as it was.
-/
import proofs.«137022_j44212393345738_1_alg».proof.Proof.RefRun
import proofs.«137022_j44212393345738_1_alg».proof.Proof.HostSpec
import proofs.«137022_j44212393345738_1_alg».proof.Proof.LibTypedRefs
import Idealize.ShloMosaic.Lib.StableHlo.Run

noncomputable section

namespace Cert.ReferenceIdeal.Host

open Cert.ReferenceIdeal Cert.ReferenceIdeal.Gen Cert.ReferenceIdeal.RefRun
open Idealize.ShloMosaic Idealize.ShloMosaic.TcCoe Idealize.SL.Sem Idealize.ShloMosaic.StableHlo
open Cert.HostSpec (srcOf dstOf degOf posOf disOf wrap normOf agg64 agg32 agg16 relu64 relu32)

variable (W : Valuation τ sig (Elt Ideal))

/-- Operations 0 … 17 of the program. -/
abbrev ops_w0 : List (HloOp τ sig (Elt Ideal)) := ((ops (F := Ideal)).drop 0).take 18

/-- Operations 18 … 20 of the program. -/
abbrev ops_w0_1 : List (HloOp τ sig (Elt Ideal)) := ((ops (F := Ideal)).drop 18).take 3

/-- Operations 21 … 39 of the program. -/
abbrev ops_w0_2 : List (HloOp τ sig (Elt Ideal)) := ((ops (F := Ideal)).drop 21).take 19

/-- Operations 40 … 40 of the program. -/
abbrev ops_d0 : List (HloOp τ sig (Elt Ideal)) := ((ops (F := Ideal)).drop 40).take 1

/-- Operations 41 … 59 of the program. -/
abbrev ops_w1 : List (HloOp τ sig (Elt Ideal)) := ((ops (F := Ideal)).drop 41).take 19

/-- Operations 60 … 62 of the program. -/
abbrev ops_w1_1 : List (HloOp τ sig (Elt Ideal)) := ((ops (F := Ideal)).drop 60).take 3

/-- Operations 63 … 63 of the program. -/
abbrev ops_d1 : List (HloOp τ sig (Elt Ideal)) := ((ops (F := Ideal)).drop 63).take 1

/-- Operations 64 … 82 of the program. -/
abbrev ops_w2 : List (HloOp τ sig (Elt Ideal)) := ((ops (F := Ideal)).drop 64).take 19

/-- Operations 83 … 85 of the program. -/
abbrev ops_w2_1 : List (HloOp τ sig (Elt Ideal)) := ((ops (F := Ideal)).drop 83).take 3

/-- Operations 86 … 86 of the program. -/
abbrev ops_d2 : List (HloOp τ sig (Elt Ideal)) := ((ops (F := Ideal)).drop 86).take 1

/-- Operations 87 … 105 of the program. -/
abbrev ops_w3 : List (HloOp τ sig (Elt Ideal)) := ((ops (F := Ideal)).drop 87).take 19

/-- Operations 106 … 109 of the program. -/
abbrev ops_t : List (HloOp τ sig (Elt Ideal)) := ((ops (F := Ideal)).drop 106).take 4

/-- The program's operations are these windows in order. -/
theorem ops_cut : (ops (F := Ideal)) = ops_w0 ++ ops_w0_1 ++ ops_w0_2 ++ ops_d0 ++ ops_w1 ++ ops_w1_1 ++ ops_d1 ++ ops_w2 ++ ops_w2_1 ++ ops_d2 ++ ops_w3 ++ ops_t := rfl

/-- The buffers the window writes. -/
abbrev wr_w0 : List (Ref sig .tc) := [main_v0, main_v1, main_v2, main_v3, main_v4, main_v5, main_v6, main_cst, main_v7, main_cst_0, main_v8, main_v9, main_v10, main_cst_1, main_v11, main_v12, main_v13, main_cst_2]
theorem hw_w0 : ops_w0.Forall fun op => op.writes ⊆ ((wr_w0).map (Proc.devRef (τ := τ) .tc)).toFinset := by
  simp only [ops_w0, ops, List.take_succ_cons, List.take_zero, List.drop_succ_cons, List.drop_zero, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the window does not write keeps its contents. -/
theorem keep_w0 {r : Ref sig .tc} (hr : r ∉ wr_w0) : after ops_w0 W (Proc.devRef .tc r) = W (Proc.devRef .tc r) :=
  after_of_writes_sub _ W hw_w0 hr

/-- The buffers the window writes. -/
abbrev wr_w0_1 : List (Ref sig .tc) := [main_call0_v0, main_call0_v1, main_v14]
theorem hw_w0_1 : ops_w0_1.Forall fun op => op.writes ⊆ ((wr_w0_1).map (Proc.devRef (τ := τ) .tc)).toFinset := by
  simp only [ops_w0_1, ops, List.take_succ_cons, List.take_zero, List.drop_succ_cons, List.drop_zero, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the window does not write keeps its contents. -/
theorem keep_w0_1 {r : Ref sig .tc} (hr : r ∉ wr_w0_1) : after ops_w0_1 W (Proc.devRef .tc r) = W (Proc.devRef .tc r) :=
  after_of_writes_sub _ W hw_w0_1 hr

/-- The buffers the window writes. -/
abbrev wr_w0_2 : List (Ref sig .tc) := [main_c, main_v15, main_v16, main_c_3, main_v17, main_v18, main_v19, main_v20, main_v21, main_c_4, main_v22, main_v23, main_c_5, main_v24, main_v25, main_v26, main_v27, main_v28, main_v29]
theorem hw_w0_2 : ops_w0_2.Forall fun op => op.writes ⊆ ((wr_w0_2).map (Proc.devRef (τ := τ) .tc)).toFinset := by
  simp only [ops_w0_2, ops, List.take_succ_cons, List.take_zero, List.drop_succ_cons, List.drop_zero, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the window does not write keeps its contents. -/
theorem keep_w0_2 {r : Ref sig .tc} (hr : r ∉ wr_w0_2) : after ops_w0_2 W (Proc.devRef .tc r) = W (Proc.devRef .tc r) :=
  after_of_writes_sub _ W hw_w0_2 hr

/-- The buffers the window writes. -/
abbrev wr_d0 : List (Ref sig .tc) := [main_v30]
theorem hw_d0 : ops_d0.Forall fun op => op.writes ⊆ ((wr_d0).map (Proc.devRef (τ := τ) .tc)).toFinset := by
  simp only [ops_d0, ops, List.take_succ_cons, List.take_zero, List.drop_succ_cons, List.drop_zero, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the window does not write keeps its contents. -/
theorem keep_d0 {r : Ref sig .tc} (hr : r ∉ wr_d0) : after ops_d0 W (Proc.devRef .tc r) = W (Proc.devRef .tc r) :=
  after_of_writes_sub _ W hw_d0 hr

/-- The buffers the window writes. -/
abbrev wr_w1 : List (Ref sig .tc) := [main_c_6, main_v31, main_v32, main_c_7, main_v33, main_v34, main_v35, main_v36, main_v37, main_v38, main_v39, main_v40, main_cst_8, main_v41, main_v42, main_v43, main_v44, main_v45, main_v46]
theorem hw_w1 : ops_w1.Forall fun op => op.writes ⊆ ((wr_w1).map (Proc.devRef (τ := τ) .tc)).toFinset := by
  simp only [ops_w1, ops, List.take_succ_cons, List.take_zero, List.drop_succ_cons, List.drop_zero, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the window does not write keeps its contents. -/
theorem keep_w1 {r : Ref sig .tc} (hr : r ∉ wr_w1) : after ops_w1 W (Proc.devRef .tc r) = W (Proc.devRef .tc r) :=
  after_of_writes_sub _ W hw_w1 hr

/-- The buffers the window writes. -/
abbrev wr_w1_1 : List (Ref sig .tc) := [main_call1_cst, main_call1_v0, main_v47]
theorem hw_w1_1 : ops_w1_1.Forall fun op => op.writes ⊆ ((wr_w1_1).map (Proc.devRef (τ := τ) .tc)).toFinset := by
  simp only [ops_w1_1, ops, List.take_succ_cons, List.take_zero, List.drop_succ_cons, List.drop_zero, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the window does not write keeps its contents. -/
theorem keep_w1_1 {r : Ref sig .tc} (hr : r ∉ wr_w1_1) : after ops_w1_1 W (Proc.devRef .tc r) = W (Proc.devRef .tc r) :=
  after_of_writes_sub _ W hw_w1_1 hr

/-- The buffers the window writes. -/
abbrev wr_d1 : List (Ref sig .tc) := [main_v48]
theorem hw_d1 : ops_d1.Forall fun op => op.writes ⊆ ((wr_d1).map (Proc.devRef (τ := τ) .tc)).toFinset := by
  simp only [ops_d1, ops, List.take_succ_cons, List.take_zero, List.drop_succ_cons, List.drop_zero, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the window does not write keeps its contents. -/
theorem keep_d1 {r : Ref sig .tc} (hr : r ∉ wr_d1) : after ops_d1 W (Proc.devRef .tc r) = W (Proc.devRef .tc r) :=
  after_of_writes_sub _ W hw_d1 hr

/-- The buffers the window writes. -/
abbrev wr_w2 : List (Ref sig .tc) := [main_c_9, main_v49, main_v50, main_c_10, main_v51, main_v52, main_v53, main_v54, main_v55, main_v56, main_v57, main_v58, main_cst_11, main_v59, main_v60, main_v61, main_v62, main_v63, main_v64]
theorem hw_w2 : ops_w2.Forall fun op => op.writes ⊆ ((wr_w2).map (Proc.devRef (τ := τ) .tc)).toFinset := by
  simp only [ops_w2, ops, List.take_succ_cons, List.take_zero, List.drop_succ_cons, List.drop_zero, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the window does not write keeps its contents. -/
theorem keep_w2 {r : Ref sig .tc} (hr : r ∉ wr_w2) : after ops_w2 W (Proc.devRef .tc r) = W (Proc.devRef .tc r) :=
  after_of_writes_sub _ W hw_w2 hr

/-- The buffers the window writes. -/
abbrev wr_w2_1 : List (Ref sig .tc) := [main_call2_cst, main_call2_v0, main_v65]
theorem hw_w2_1 : ops_w2_1.Forall fun op => op.writes ⊆ ((wr_w2_1).map (Proc.devRef (τ := τ) .tc)).toFinset := by
  simp only [ops_w2_1, ops, List.take_succ_cons, List.take_zero, List.drop_succ_cons, List.drop_zero, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the window does not write keeps its contents. -/
theorem keep_w2_1 {r : Ref sig .tc} (hr : r ∉ wr_w2_1) : after ops_w2_1 W (Proc.devRef .tc r) = W (Proc.devRef .tc r) :=
  after_of_writes_sub _ W hw_w2_1 hr

/-- The buffers the window writes. -/
abbrev wr_d2 : List (Ref sig .tc) := [main_v66]
theorem hw_d2 : ops_d2.Forall fun op => op.writes ⊆ ((wr_d2).map (Proc.devRef (τ := τ) .tc)).toFinset := by
  simp only [ops_d2, ops, List.take_succ_cons, List.take_zero, List.drop_succ_cons, List.drop_zero, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the window does not write keeps its contents. -/
theorem keep_d2 {r : Ref sig .tc} (hr : r ∉ wr_d2) : after ops_d2 W (Proc.devRef .tc r) = W (Proc.devRef .tc r) :=
  after_of_writes_sub _ W hw_d2 hr

/-- The buffers the window writes. -/
abbrev wr_w3 : List (Ref sig .tc) := [main_c_12, main_v67, main_v68, main_c_13, main_v69, main_v70, main_v71, main_v72, main_v73, main_v74, main_v75, main_v76, main_cst_14, main_v77, main_v78, main_v79, main_v80, main_v81, main_v82]
theorem hw_w3 : ops_w3.Forall fun op => op.writes ⊆ ((wr_w3).map (Proc.devRef (τ := τ) .tc)).toFinset := by
  simp only [ops_w3, ops, List.take_succ_cons, List.take_zero, List.drop_succ_cons, List.drop_zero, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the window does not write keeps its contents. -/
theorem keep_w3 {r : Ref sig .tc} (hr : r ∉ wr_w3) : after ops_w3 W (Proc.devRef .tc r) = W (Proc.devRef .tc r) :=
  after_of_writes_sub _ W hw_w3 hr

/-- The buffers the window writes. -/
abbrev wr_t : List (Ref sig .tc) := [main_v83, main_v84, main_v85, main_v86]
theorem hw_t : ops_t.Forall fun op => op.writes ⊆ ((wr_t).map (Proc.devRef (τ := τ) .tc)).toFinset := by
  simp only [ops_t, ops, List.take_succ_cons, List.take_zero, List.drop_succ_cons, List.drop_zero, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the window does not write keeps its contents. -/
theorem keep_t {r : Ref sig .tc} (hr : r ∉ wr_t) : after ops_t W (Proc.devRef .tc r) = W (Proc.devRef .tc r) :=
  after_of_writes_sub _ W hw_t hr

/-! ## What each window leaves in the buffers later windows read -/

theorem w0_v3 : after ops_w0 W (Proc.devRef .tc main_v3) = srcOf (W (Proc.devRef .tc main_arg1)) := by
  simp only [ops_w0, ops, List.take_succ_cons, List.take_zero, List.drop_succ_cons, List.drop_zero]
  after_results <;> rfl

theorem w0_v6 : after ops_w0 W (Proc.devRef .tc main_v6) = dstOf (W (Proc.devRef .tc main_arg1)) := by
  simp only [ops_w0, ops, List.take_succ_cons, List.take_zero, List.drop_succ_cons, List.drop_zero]
  after_results <;> rfl

theorem w0_v12 : after ops_w0 W (Proc.devRef .tc main_v12) = posOf (degOf (dstOf (W (Proc.devRef .tc main_arg1)))) := by
  simp only [ops_w0, ops, List.take_succ_cons, List.take_zero, List.drop_succ_cons, List.drop_zero]
  after_results <;> rfl

theorem w0_v13 : after ops_w0 W (Proc.devRef .tc main_v13) = Host.rsqrt (F := Ideal) (degOf (dstOf (W (Proc.devRef .tc main_arg1)))) := by
  simp only [ops_w0, ops, List.take_succ_cons, List.take_zero, List.drop_succ_cons, List.drop_zero]
  after_results <;> rfl

theorem w0_cst_2 : after ops_w0 W (Proc.devRef .tc main_cst_2) = constant (F := Ideal) S_ .f32 0x00000000#32 := by
  simp only [ops_w0, ops, List.take_succ_cons, List.take_zero, List.drop_succ_cons, List.drop_zero]
  after_results <;> rfl

theorem w0_1_v14 : after ops_w0_1 W (Proc.devRef .tc main_v14) = disOf (W (Proc.devRef .tc main_v12)) (W (Proc.devRef .tc main_v13)) (W (Proc.devRef .tc main_cst_2)) := by
  simp only [ops_w0_1, ops, List.take_succ_cons, List.take_zero, List.drop_succ_cons, List.drop_zero]
  after_results
  try simp only [Cert.LibTypedRefs.ofBuf_toBuf, Cert.LibTypedRefs.toBuf_ofBuf]
  rfl

theorem w0_2_v29 : after ops_w0_2 W (Proc.devRef .tc main_v29) = normOf (W (Proc.devRef .tc main_v14)) (W (Proc.devRef .tc main_v3)) (W (Proc.devRef .tc main_v6)) := by
  simp only [ops_w0_2, ops, List.take_succ_cons, List.take_zero, List.drop_succ_cons, List.drop_zero]
  after_results_simp <;> rfl

theorem d0_v30 : after ops_d0 W (Proc.devRef .tc main_v30) = Host.dotGeneral (F := Ideal) (φ₁ := .f32) (φ₂ := .f32) dot_S100000x512_S512x64_S100000x64_1_0_0_1_n_n none (W (Proc.devRef .tc main_arg0)) (W (Proc.devRef .tc main_arg2)) := by
  simp only [ops_d0, ops, List.take_succ_cons, List.take_zero, List.drop_succ_cons, List.drop_zero]
  after_results <;> rfl

theorem w1_v46 : after ops_w1 W (Proc.devRef .tc main_v46) = agg64 (W (Proc.devRef .tc main_v30)) (W (Proc.devRef .tc main_v3)) (W (Proc.devRef .tc main_v6)) (W (Proc.devRef .tc main_v29)) (W (Proc.devRef .tc main_arg3)) := by
  simp only [ops_w1, ops, List.take_succ_cons, List.take_zero, List.drop_succ_cons, List.drop_zero]
  after_results_simp <;> rfl

theorem w1_1_v47 : after ops_w1_1 W (Proc.devRef .tc main_v47) = relu64 (W (Proc.devRef .tc main_v46)) := by
  simp only [ops_w1_1, ops, List.take_succ_cons, List.take_zero, List.drop_succ_cons, List.drop_zero]
  after_results
  try simp only [Cert.LibTypedRefs.ofBuf_toBuf, Cert.LibTypedRefs.toBuf_ofBuf]
  rfl

theorem d1_v48 : after ops_d1 W (Proc.devRef .tc main_v48) = Host.dotGeneral (F := Ideal) (φ₁ := .f32) (φ₂ := .f32) dot_S100000x64_S64x32_S100000x32_1_0_0_1_n_n none (W (Proc.devRef .tc main_v47)) (W (Proc.devRef .tc main_arg4)) := by
  simp only [ops_d1, ops, List.take_succ_cons, List.take_zero, List.drop_succ_cons, List.drop_zero]
  after_results <;> rfl

theorem w2_v64 : after ops_w2 W (Proc.devRef .tc main_v64) = agg32 (W (Proc.devRef .tc main_v48)) (W (Proc.devRef .tc main_v3)) (W (Proc.devRef .tc main_v6)) (W (Proc.devRef .tc main_v29)) (W (Proc.devRef .tc main_arg5)) := by
  simp only [ops_w2, ops, List.take_succ_cons, List.take_zero, List.drop_succ_cons, List.drop_zero]
  after_results_simp <;> rfl

theorem w2_1_v65 : after ops_w2_1 W (Proc.devRef .tc main_v65) = relu32 (W (Proc.devRef .tc main_v64)) := by
  simp only [ops_w2_1, ops, List.take_succ_cons, List.take_zero, List.drop_succ_cons, List.drop_zero]
  after_results
  try simp only [Cert.LibTypedRefs.ofBuf_toBuf, Cert.LibTypedRefs.toBuf_ofBuf]
  rfl

theorem d2_v66 : after ops_d2 W (Proc.devRef .tc main_v66) = Host.dotGeneral (F := Ideal) (φ₁ := .f32) (φ₂ := .f32) dot_S100000x32_S32x16_S100000x16_1_0_0_1_n_n none (W (Proc.devRef .tc main_v65)) (W (Proc.devRef .tc main_arg6)) := by
  simp only [ops_d2, ops, List.take_succ_cons, List.take_zero, List.drop_succ_cons, List.drop_zero]
  after_results <;> rfl

theorem w3_v82 : after ops_w3 W (Proc.devRef .tc main_v82) = agg16 (W (Proc.devRef .tc main_v66)) (W (Proc.devRef .tc main_v3)) (W (Proc.devRef .tc main_v6)) (W (Proc.devRef .tc main_v29)) (W (Proc.devRef .tc main_arg7)) := by
  simp only [ops_w3, ops, List.take_succ_cons, List.take_zero, List.drop_succ_cons, List.drop_zero]
  after_results_simp <;> rfl

theorem t_v86 : after ops_t W (Proc.devRef .tc main_v86) = addf (F := Ideal) (Host.dotGeneral (F := Ideal) (φ₁ := .f32) (φ₂ := .f32) dot_S100000x16_S16x7_S100000x7_1_0_0_1_n_n none (W (Proc.devRef .tc main_v82)) (W (Proc.devRef .tc main_arg8)))
      (broadcastInDim S100000x7 ![0, 1] Facts₀.bcast_S1x7_S100000x7_0_1 (broadcastInDim S1x7 ![1] Facts₀.bcast_S7_S1x7_1 (W (Proc.devRef .tc main_arg9)))) := by
  simp only [ops_t, ops, List.take_succ_cons, List.take_zero, List.drop_succ_cons, List.drop_zero]
  after_results <;> rfl

end Cert.ReferenceIdeal.Host

end
-- ==== Proof.RValue.lean ====
/-
  The idealized reference program's result as the network function of its arguments.

  The program's 110 host operations are followed window by window from the launch contents L: a window of graph
  preparation or aggregation is read by the shared host functions (Cert.ReferenceIdeal.Host), each of the four
  dot_generals is the plain product Cert.Spec.mm of the two buffers it reads, a buffer that a window does not write is
  carried over unchanged, and the last three operations add the bias row to the last product.
-/
import proofs.«137022_j44212393345738_1_alg».proof.Proof.RHost
import proofs.«137022_j44212393345738_1_alg».proof.Proof.NetSpec
import proofs.«137022_j44212393345738_1_alg».proof.Proof.LibDenseStage
import Idealize.ShloMosaic.Lib.Pipeline.Value
import Idealize.ShloMosaic.Lib.ValueIdx

noncomputable section

namespace Cert.ReferenceIdeal.RValue

open Cert.ReferenceIdeal Cert.ReferenceIdeal.Gen Cert.ReferenceIdeal.RefRun Cert.ReferenceIdeal.Host
open Idealize.ShloMosaic Idealize.ShloMosaic.TcCoe Idealize.SL.Sem Idealize.ShloMosaic.StableHlo Idealize.ShloMosaic.ValueIdx
open Cert.HostSpec (srcOf dstOf degOf posOf disOf wrap normOf normE agg64 agg32 agg16 relu64 relu32)
open Cert.Spec (mm mmb)
open Cert.NetSpec (layer1 layer2 layer3 row7 net)

/-- The contents after two lines of operations one after the other are the contents after their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

variable (L : Valuation τ sig (Elt Ideal))

/-! ## The contents at the window boundaries -/

abbrev R1 : Valuation τ sig (Elt Ideal) := after ops_w0 L
abbrev R2 : Valuation τ sig (Elt Ideal) := after ops_w0_1 (R1 L)
abbrev R3 : Valuation τ sig (Elt Ideal) := after ops_w0_2 (R2 L)
abbrev R4 : Valuation τ sig (Elt Ideal) := after ops_d0 (R3 L)
abbrev R5 : Valuation τ sig (Elt Ideal) := after ops_w1 (R4 L)
abbrev R6 : Valuation τ sig (Elt Ideal) := after ops_w1_1 (R5 L)
abbrev R7 : Valuation τ sig (Elt Ideal) := after ops_d1 (R6 L)
abbrev R8 : Valuation τ sig (Elt Ideal) := after ops_w2 (R7 L)
abbrev R9 : Valuation τ sig (Elt Ideal) := after ops_w2_1 (R8 L)
abbrev R10 : Valuation τ sig (Elt Ideal) := after ops_d2 (R9 L)
abbrev R11 : Valuation τ sig (Elt Ideal) := after ops_w3 (R10 L)
abbrev R12 : Valuation τ sig (Elt Ideal) := after ops_t (R11 L)

/-- The whole program's fold is the windows' folds in order. -/
theorem ops_fold : after (ops (F := Ideal)) L = R12 L := by
  rw [ops_cut]
  simp only [after_append]

/-! ## The four products as plain sums -/

theorem dot0 (a : FVec Ideal S100000x512 .f32) (b : FVec Ideal S512x64 .f32) :
    Host.dotGeneral (F := Ideal) dot_S100000x512_S512x64_S100000x64_1_0_0_1_n_n none a b = mm 100000 512 64 a b :=
  Cert.Spec.dotGeneral_eq_mm 100000 512 64 a b
theorem dot1 (a : FVec Ideal S100000x64 .f32) (b : FVec Ideal S64x32 .f32) :
    Host.dotGeneral (F := Ideal) dot_S100000x64_S64x32_S100000x32_1_0_0_1_n_n none a b = mm 100000 64 32 a b :=
  Cert.Spec.dotGeneral_eq_mm 100000 64 32 a b
theorem dot2 (a : FVec Ideal S100000x32 .f32) (b : FVec Ideal S32x16 .f32) :
    Host.dotGeneral (F := Ideal) dot_S100000x32_S32x16_S100000x16_1_0_0_1_n_n none a b = mm 100000 32 16 a b :=
  Cert.Spec.dotGeneral_eq_mm 100000 32 16 a b
theorem dot3 (a : FVec Ideal S100000x16 .f32) (b : FVec Ideal S16x7 .f32) :
    Host.dotGeneral (F := Ideal) dot_S100000x16_S16x7_S100000x7_1_0_0_1_n_n none a b = mm 100000 16 7 a b :=
  Cert.Spec.dotGeneral_eq_mm 100000 16 7 a b

/-- The read-out: the last product plus the bias vector, made a row and spread over the rows, is mmb with that row. -/
theorem readout (h : FVec Ideal S100000x16 .f32) (wl : FVec Ideal S16x7 .f32) (bl : FVec Ideal S7 .f32) :
    addf (F := Ideal) (Host.dotGeneral (F := Ideal) dot_S100000x16_S16x7_S100000x7_1_0_0_1_n_n none h wl)
        (broadcastInDim S100000x7 ![0, 1] Facts₀.bcast_S1x7_S100000x7_0_1 (broadcastInDim S1x7 ![1] Facts₀.bcast_S7_S1x7_1 bl))
      = mmb 100000 16 7 h wl (row7 bl) := by
  funext i
  obtain ⟨a, c, rfl⟩ : ∃ (a : Fin 100000) (c : Fin 7), i = ix2 a c := ⟨i 0, i 1, eq_ix2 i⟩
  rw [addf_apply, dot3, Cert.LibDenseStage.row_broadcastInDim 100000 7,
    broadcastInDim_apply (![1] : Fin 1 → Fin 2) Facts₀.bcast_S7_S1x7_1 bl (ix2 (0 : Fin 1) c) (ix1 c) (fun ax => by
      match ax with
      | ⟨0, _⟩ => show c.val = if (7 : Nat) = 1 then 0 else c.val; rw [if_neg (by decide)])]
  rfl

/-! ## Up to the first product -/

theorem R3_keep {r : Ref sig .tc} (h0 : r ∉ wr_w0) (h1 : r ∉ wr_w0_1) (h2 : r ∉ wr_w0_2) :
    R3 L (Proc.devRef .tc r) = L (Proc.devRef .tc r) :=
  (keep_w0_2 (R2 L) h2).trans ((keep_w0_1 (R1 L) h1).trans (keep_w0 L h0))

theorem R3_v3 : R3 L (Proc.devRef .tc main_v3) = srcOf (L (Proc.devRef .tc main_arg1)) :=
  (keep_w0_2 (R2 L) (by decide)).trans ((keep_w0_1 (R1 L) (by decide)).trans (w0_v3 L))
theorem R3_v6 : R3 L (Proc.devRef .tc main_v6) = dstOf (L (Proc.devRef .tc main_arg1)) :=
  (keep_w0_2 (R2 L) (by decide)).trans ((keep_w0_1 (R1 L) (by decide)).trans (w0_v6 L))
theorem R3_v29 : R3 L (Proc.devRef .tc main_v29) = normE (L (Proc.devRef .tc main_arg1)) := by
  dsimp only [R3, R2, R1]
  rw [w0_2_v29, w0_1_v14, keep_w0_1 _ (r := main_v3) (by decide), keep_w0_1 _ (r := main_v6) (by decide), w0_v12, w0_v13, w0_cst_2,
    w0_v3, w0_v6]
  rfl

/-! ## The first product and the first layer -/

theorem R4_v30 : R4 L (Proc.devRef .tc main_v30) = mm 100000 512 64 (L (Proc.devRef .tc main_arg0)) (L (Proc.devRef .tc main_arg2)) := by
  dsimp only [R4]
  rw [d0_v30, dot0, R3_keep L (r := main_arg0) (by decide) (by decide) (by decide), R3_keep L (r := main_arg2) (by decide) (by decide) (by decide)]

/-- The first product writes its result only. -/
theorem R4_keep {r : Ref sig .tc} (h : r ∉ wr_d0) : R4 L (Proc.devRef .tc r) = R3 L (Proc.devRef .tc r) := keep_d0 (R3 L) h

theorem R6_keep {r : Ref sig .tc} (h : r ∉ wr_d0) (h1 : r ∉ wr_w1) (h2 : r ∉ wr_w1_1) :
    R6 L (Proc.devRef .tc r) = R3 L (Proc.devRef .tc r) :=
  (keep_w1_1 (R5 L) h2).trans ((keep_w1 (R4 L) h1).trans (keep_d0 (R3 L) h))

theorem R6_v47 : R6 L (Proc.devRef .tc main_v47) = layer1 (L (Proc.devRef .tc main_arg0)) (L (Proc.devRef .tc main_arg1)) (L (Proc.devRef .tc main_arg2)) (L (Proc.devRef .tc main_arg3)) := by
  dsimp only [R6, R5]
  rw [w1_1_v47, w1_v46, R4_v30, R4_keep L (r := main_v3) (by decide), R4_keep L (r := main_v6) (by decide), R4_keep L (r := main_v29) (by decide),
    R4_keep L (r := main_arg3) (by decide), R3_v3, R3_v6, R3_v29, R3_keep L (r := main_arg3) (by decide) (by decide) (by decide)]
  rfl

/-! ## The second product and the second layer -/

theorem R7_v48 : R7 L (Proc.devRef .tc main_v48) = mm 100000 64 32 (layer1 (L (Proc.devRef .tc main_arg0)) (L (Proc.devRef .tc main_arg1)) (L (Proc.devRef .tc main_arg2)) (L (Proc.devRef .tc main_arg3))) (L (Proc.devRef .tc main_arg4)) := by
  dsimp only [R7]
  rw [d1_v48, dot1, R6_v47, R6_keep L (r := main_arg4) (by decide) (by decide) (by decide), R3_keep L (r := main_arg4) (by decide) (by decide) (by decide)]

/-- The second product writes its result only. -/
theorem R7_keep {r : Ref sig .tc} (h : r ∉ wr_d1) : R7 L (Proc.devRef .tc r) = R6 L (Proc.devRef .tc r) := keep_d1 (R6 L) h

theorem R9_keep {r : Ref sig .tc} (h : r ∉ wr_d1) (h1 : r ∉ wr_w2) (h2 : r ∉ wr_w2_1) :
    R9 L (Proc.devRef .tc r) = R6 L (Proc.devRef .tc r) :=
  (keep_w2_1 (R8 L) h2).trans ((keep_w2 (R7 L) h1).trans (keep_d1 (R6 L) h))

theorem R9_keep0 {r : Ref sig .tc} (h0 : r ∉ wr_w0) (h1 : r ∉ wr_w0_1) (h2 : r ∉ wr_w0_2)
    (h3 : r ∉ wr_d0) (h4 : r ∉ wr_w1) (h5 : r ∉ wr_w1_1) (h6 : r ∉ wr_d1) (h7 : r ∉ wr_w2) (h8 : r ∉ wr_w2_1) :
    R9 L (Proc.devRef .tc r) = L (Proc.devRef .tc r) :=
  (R9_keep L h6 h7 h8).trans ((R6_keep L h3 h4 h5).trans (R3_keep L h0 h1 h2))

theorem R9_v3 : R9 L (Proc.devRef .tc main_v3) = srcOf (L (Proc.devRef .tc main_arg1)) :=
  (R9_keep L (by decide) (by decide) (by decide)).trans ((R6_keep L (by decide) (by decide) (by decide)).trans (R3_v3 L))
theorem R9_v6 : R9 L (Proc.devRef .tc main_v6) = dstOf (L (Proc.devRef .tc main_arg1)) :=
  (R9_keep L (by decide) (by decide) (by decide)).trans ((R6_keep L (by decide) (by decide) (by decide)).trans (R3_v6 L))
theorem R9_v29 : R9 L (Proc.devRef .tc main_v29) = normE (L (Proc.devRef .tc main_arg1)) :=
  (R9_keep L (by decide) (by decide) (by decide)).trans ((R6_keep L (by decide) (by decide) (by decide)).trans (R3_v29 L))

theorem R9_v65 : R9 L (Proc.devRef .tc main_v65)
    = layer2 (layer1 (L (Proc.devRef .tc main_arg0)) (L (Proc.devRef .tc main_arg1)) (L (Proc.devRef .tc main_arg2)) (L (Proc.devRef .tc main_arg3))) (L (Proc.devRef .tc main_arg1)) (L (Proc.devRef .tc main_arg4)) (L (Proc.devRef .tc main_arg5)) := by
  dsimp only [R9, R8]
  rw [w2_1_v65, w2_v64, R7_v48, R7_keep L (r := main_v3) (by decide), R7_keep L (r := main_v6) (by decide), R7_keep L (r := main_v29) (by decide),
    R7_keep L (r := main_arg5) (by decide),
    R6_keep L (r := main_v3) (by decide) (by decide) (by decide), R6_keep L (r := main_v6) (by decide) (by decide) (by decide),
    R6_keep L (r := main_v29) (by decide) (by decide) (by decide), R6_keep L (r := main_arg5) (by decide) (by decide) (by decide),
    R3_v3, R3_v6, R3_v29, R3_keep L (r := main_arg5) (by decide) (by decide) (by decide)]
  rfl

/-! ## The third product and the third layer -/

theorem R10_v66 : R10 L (Proc.devRef .tc main_v66)
    = mm 100000 32 16 (layer2 (layer1 (L (Proc.devRef .tc main_arg0)) (L (Proc.devRef .tc main_arg1)) (L (Proc.devRef .tc main_arg2)) (L (Proc.devRef .tc main_arg3))) (L (Proc.devRef .tc main_arg1)) (L (Proc.devRef .tc main_arg4)) (L (Proc.devRef .tc main_arg5))) (L (Proc.devRef .tc main_arg6)) := by
  dsimp only [R10]
  rw [d2_v66, dot2, R9_v65, R9_keep0 L (r := main_arg6) (by decide) (by decide) (by decide) (by decide) (by decide) (by decide) (by decide) (by decide) (by decide)]

/-- The third product writes its result only. -/
theorem R10_keep {r : Ref sig .tc} (h : r ∉ wr_d2) : R10 L (Proc.devRef .tc r) = R9 L (Proc.devRef .tc r) := keep_d2 (R9 L) h

theorem R11_keep {r : Ref sig .tc} (h : r ∉ wr_d2) (h1 : r ∉ wr_w3) :
    R11 L (Proc.devRef .tc r) = R9 L (Proc.devRef .tc r) :=
  (keep_w3 (R10 L) h1).trans (keep_d2 (R9 L) h)

theorem R11_v82 : R11 L (Proc.devRef .tc main_v82)
    = layer3 (layer2 (layer1 (L (Proc.devRef .tc main_arg0)) (L (Proc.devRef .tc main_arg1)) (L (Proc.devRef .tc main_arg2)) (L (Proc.devRef .tc main_arg3))) (L (Proc.devRef .tc main_arg1)) (L (Proc.devRef .tc main_arg4)) (L (Proc.devRef .tc main_arg5))) (L (Proc.devRef .tc main_arg1)) (L (Proc.devRef .tc main_arg6)) (L (Proc.devRef .tc main_arg7)) := by
  dsimp only [R11]
  rw [w3_v82, R10_v66, R10_keep L (r := main_v3) (by decide), R10_keep L (r := main_v6) (by decide), R10_keep L (r := main_v29) (by decide),
    R10_keep L (r := main_arg7) (by decide), R9_v3, R9_v6, R9_v29,
    R9_keep0 L (r := main_arg7) (by decide) (by decide) (by decide) (by decide) (by decide) (by decide) (by decide) (by decide) (by decide)]
  rfl

theorem R11_arg8 : R11 L (Proc.devRef .tc main_arg8) = (L (Proc.devRef .tc main_arg8)) :=
  (R11_keep L (by decide) (by decide)).trans (R9_keep0 L (by decide) (by decide) (by decide) (by decide) (by decide) (by decide) (by decide) (by decide) (by decide))
theorem R11_arg9 : R11 L (Proc.devRef .tc main_arg9) = (L (Proc.devRef .tc main_arg9)) :=
  (R11_keep L (by decide) (by decide)).trans (R9_keep0 L (by decide) (by decide) (by decide) (by decide) (by decide) (by decide) (by decide) (by decide) (by decide))

/-! ## The read-out -/

/-- The program's result buffer after all its operations: the network of the launch contents of its arguments. -/
theorem result : after (ops (F := Ideal)) L (Proc.devRef .tc main_v86)
    = net (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) := by
  rw [ops_fold]
  dsimp only [R12]
  rw [t_v86, R11_v82, R11_arg8, R11_arg9, readout]
  rfl

end Cert.ReferenceIdeal.RValue

end
-- ==== Proof.lean ====
/-
  The certificate of a three-layer graph convolutional network whose four dense products run as pipelined matrix-unit
  kernels, against the reference that computes them with dot_general.

  Both programs prepare the graph with the same host operations (self-loops appended to the edge list, degrees by a
  segment sum of ones, inverse square roots, edge weights) and run the same gather / scale / segment-sum / bias /
  positive-part operations between the dense products. They differ only in the products: the kernel program multiplies
  blocks of 4000 rows on the matrix unit, narrowing both operands to a 16-bit format first and accumulating from zero,
  and its last product adds the bias row inside the kernel; the reference applies dot_general to the whole arrays and adds
  the broadcast bias afterwards. On the extended reals the narrowing is the identity, a product into a zero accumulator
  and a dot_general are both the plain sum over the contracted axis, and a row of the whole product depends only on the
  same row of the left operand, so the blocks written back are the blocks of the whole product. Hence both programs end
  with Cert.NetSpec.net of their arguments; no law of the extended reals beyond that is used and the precondition is not
  opened.

  The frames of the two kernel programs are the generated frame runs; the reference's frame and value come from its run
  as a line of host operations (Proof/RefRun.lean); the ideal pass rewrote nothing, so the preservation claim is trivial.
-/
import proofs.«137022_j44212393345738_1_alg».proof.Defs
import proofs.«137022_j44212393345738_1_alg».proof.Proof.Gen.Kernel
import proofs.«137022_j44212393345738_1_alg».proof.Proof.Gen.Kernel.Skeleton
import proofs.«137022_j44212393345738_1_alg».proof.Proof.Gen.Kernel.Launch
import proofs.«137022_j44212393345738_1_alg».proof.Proof.Gen.Kernel.Points
import proofs.«137022_j44212393345738_1_alg».proof.Proof.Gen.Kernel.Frame
import proofs.«137022_j44212393345738_1_alg».proof.Proof.Gen.KernelIdeal
import proofs.«137022_j44212393345738_1_alg».proof.Proof.Gen.KernelIdeal.Skeleton
import proofs.«137022_j44212393345738_1_alg».proof.Proof.Gen.KernelIdeal.Launch
import proofs.«137022_j44212393345738_1_alg».proof.Proof.Gen.KernelIdeal.Points
import proofs.«137022_j44212393345738_1_alg».proof.Proof.Gen.KernelIdeal.Frame
import proofs.«137022_j44212393345738_1_alg».proof.Proof.Gen.ReferenceIdeal
import proofs.«137022_j44212393345738_1_alg».proof.Proof.Gen.Pre_finite_inputs
import proofs.«137022_j44212393345738_1_alg».proof.Proof.KernelRun
import proofs.«137022_j44212393345738_1_alg».proof.Proof.KValue
import proofs.«137022_j44212393345738_1_alg».proof.Proof.RefRun
import proofs.«137022_j44212393345738_1_alg».proof.Proof.RValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of host operations: it runs, and no operation writes an argument. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both idealized programs end with the network function of their arguments in the result buffer. -/
theorem algebraic : Cert.algebraic_KernelIdeal_ReferenceIdeal := by
  intro m ρ m' ρ' _ hagree
  refine ⟨fun c => Cert.NetSpec.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.KValue.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.RefRun.run (F := Ideal) m' ρ')
    refine (Cert.ReferenceIdeal.RValue.result (StableHlo.launchContents m' c)).trans ?_
    obtain ⟨e0, e1, e2, e3, e4, e5, e6, e7, e8, e9⟩ := hagree c
    show Cert.NetSpec.net (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) = _
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
